-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x2048 : Shape := ⟨3, ![16, 128, 2048]⟩
abbrev S16x2048x8192 : Shape := ⟨3, ![16, 2048, 8192]⟩
abbrev S16x1x8192 : Shape := ⟨3, ![16, 1, 8192]⟩
abbrev S16x8192x2048 : Shape := ⟨3, ![16, 8192, 2048]⟩
abbrev S16x1x2048 : Shape := ⟨3, ![16, 1, 2048]⟩
abbrev S_ : Shape := ⟨0, ![]⟩

class Facts : Prop where
  bcast_S_S16x128x2048 : S_.BroadcastsInDim S16x128x2048 (![] : Fin 0 → Fin S16x128x2048.rank)
  reducesTo_S16x128x2048_S_d0_1_2 : S16x128x2048.ReducesTo [0, 1, 2] S_
  h_S_ : 0 < S_.numel
  bcast_S_S16x2048x8192 : S_.BroadcastsInDim S16x2048x8192 (![] : Fin 0 → Fin S16x2048x8192.rank)
  reducesTo_S16x2048x8192_S_d0_1_2 : S16x2048x8192.ReducesTo [0, 1, 2] S_
  bcast_S_S16x1x8192 : S_.BroadcastsInDim S16x1x8192 (![] : Fin 0 → Fin S16x1x8192.rank)
  reducesTo_S16x1x8192_S_d0_1_2 : S16x1x8192.ReducesTo [0, 1, 2] S_
  bcast_S_S16x8192x2048 : S_.BroadcastsInDim S16x8192x2048 (![] : Fin 0 → Fin S16x8192x2048.rank)
  reducesTo_S16x8192x2048_S_d0_1_2 : S16x8192x2048.ReducesTo [0, 1, 2] S_
  bcast_S_S16x1x2048 : S_.BroadcastsInDim S16x1x2048 (![] : Fin 0 → Fin S16x1x2048.rank)
  reducesTo_S16x1x2048_S_d0_1_2 : S16x1x2048.ReducesTo [0, 1, 2] S_

variable [Facts]

def fn_part1 {F : FTy → Type} [FloatOps F] (main_arg4 : FVec F S16x1x8192 .f32) (main_arg5 : FVec F S16x8192x2048 .f32) (main_arg6 : FVec F S16x1x2048 .f32) (main_v13 : IVec S_ 1) (main_v16 : IVec S16x2048x8192 1) : IVec S_ 1 :=
  let main_c_5 : IVec S_ 1 := constantI S_ 1 1#1
  let main_v17 : IVec S_ 1 := (fun x v => Host.reduce IntOp.andi x v reducesTo_S16x2048x8192_S_d0_1_2 h_S_) main_v16 main_c_5
  let main_v18 : IVec S_ 1 := andi main_v13 main_v17
  let main_v19 : FVec F S16x1x8192 .f32 := Host.absf main_arg4
  let main_cst_6 : FVec F S_ .f32 := constant S_ .f32 0x7F800000#32
  let main_v20 : FVec F S16x1x8192 .f32 := broadcastInDim S16x1x8192 ![] bcast_S_S16x1x8192 main_cst_6
  let main_v21 : IVec S16x1x8192 1 := cmpf .olt main_v19 main_v20
  let main_c_7 : IVec S_ 1 := constantI S_ 1 1#1
  let main_v22 : IVec S_ 1 := (fun x v => Host.reduce IntOp.andi x v reducesTo_S16x1x8192_S_d0_1_2 h_S_) main_v21 main_c_7
  let main_v23 : IVec S_ 1 := andi main_v18 main_v22
  let main_v24 : FVec F S16x8192x2048 .f32 := Host.absf main_arg5
  let main_cst_8 : FVec F S_ .f32 := constant S_ .f32 0x7F800000#32
  let main_v25 : FVec F S16x8192x2048 .f32 := broadcastInDim S16x8192x2048 ![] bcast_S_S16x8192x2048 main_cst_8
  let main_v26 : IVec S16x8192x2048 1 := cmpf .olt main_v24 main_v25
  let main_c_9 : IVec S_ 1 := constantI S_ 1 1#1
  let main_v27 : IVec S_ 1 := (fun x v => Host.reduce IntOp.andi x v reducesTo_S16x8192x2048_S_d0_1_2 h_S_) main_v26 main_c_9
  let main_v28 : IVec S_ 1 := andi main_v23 main_v27
  let main_v29 : FVec F S16x1x2048 .f32 := Host.absf main_arg6
  let main_cst_10 : FVec F S_ .f32 := constant S_ .f32 0x7F800000#32
  let main_v30 : FVec F S16x1x2048 .f32 := broadcastInDim S16x1x2048 ![] bcast_S_S16x1x2048 main_cst_10
  let main_v31 : IVec S16x1x2048 1 := cmpf .olt main_v29 main_v30
  let main_c_11 : IVec S_ 1 := constantI S_ 1 1#1
  let main_v32 : IVec S_ 1 := (fun x v => Host.reduce IntOp.andi x v reducesTo_S16x1x2048_S_d0_1_2 h_S_) main_v31 main_c_11
  let main_v33 : IVec S_ 1 := andi main_v28 main_v32
  main_v33

def fn {F : FTy → Type} [FloatOps F] (main_arg0 : FVec F S16x128x2048 .f32) (main_arg1 : FVec F S16x2048x8192 .f32) (main_arg2 : FVec F S16x1x8192 .f32) (main_arg3 : FVec F S16x2048x8192 .f32) (main_arg4 : FVec F S16x1x8192 .f32) (main_arg5 : FVec F S16x8192x2048 .f32) (main_arg6 : FVec F S16x1x2048 .f32) : IVec S_ 1 :=
  let main_v0 : FVec F S16x128x2048 .f32 := Host.absf main_arg0
  let main_cst : FVec F S_ .f32 := constant S_ .f32 0x7F800000#32
  let main_v1 : FVec F S16x128x2048 .f32 := broadcastInDim S16x128x2048 ![] bcast_S_S16x128x2048 main_cst
  let main_v2 : IVec S16x128x2048 1 := cmpf .olt main_v0 main_v1
  let main_c : IVec S_ 1 := constantI S_ 1 1#1
  let main_v3 : IVec S_ 1 := (fun x v => Host.reduce IntOp.andi x v reducesTo_S16x128x2048_S_d0_1_2 h_S_) main_v2 main_c
  let main_v4 : FVec F S16x2048x8192 .f32 := Host.absf main_arg1
  let main_cst_0 : FVec F S_ .f32 := constant S_ .f32 0x7F800000#32
  let main_v5 : FVec F S16x2048x8192 .f32 := broadcastInDim S16x2048x8192 ![] bcast_S_S16x2048x8192 main_cst_0
  let main_v6 : IVec S16x2048x8192 1 := cmpf .olt main_v4 main_v5
  let main_c_1 : IVec S_ 1 := constantI S_ 1 1#1
  let main_v7 : IVec S_ 1 := (fun x v => Host.reduce IntOp.andi x v reducesTo_S16x2048x8192_S_d0_1_2 h_S_) main_v6 main_c_1
  let main_v8 : IVec S_ 1 := andi main_v3 main_v7
  let main_v9 : FVec F S16x1x8192 .f32 := Host.absf main_arg2
  let main_cst_2 : FVec F S_ .f32 := constant S_ .f32 0x7F800000#32
  let main_v10 : FVec F S16x1x8192 .f32 := broadcastInDim S16x1x8192 ![] bcast_S_S16x1x8192 main_cst_2
  let main_v11 : IVec S16x1x8192 1 := cmpf .olt main_v9 main_v10
  let main_c_3 : IVec S_ 1 := constantI S_ 1 1#1
  let main_v12 : IVec S_ 1 := (fun x v => Host.reduce IntOp.andi x v reducesTo_S16x1x8192_S_d0_1_2 h_S_) main_v11 main_c_3
  let main_v13 : IVec S_ 1 := andi main_v8 main_v12
  let main_v14 : FVec F S16x2048x8192 .f32 := Host.absf main_arg3
  let main_cst_4 : FVec F S_ .f32 := constant S_ .f32 0x7F800000#32
  let main_v15 : FVec F S16x2048x8192 .f32 := broadcastInDim S16x2048x8192 ![] bcast_S_S16x2048x8192 main_cst_4
  let main_v16 : IVec S16x2048x8192 1 := cmpf .olt main_v14 main_v15
  fn_part1 (F := F) main_arg4 main_arg5 main_arg6 main_v13 main_v16
-- ==== Kernel.lean ====
abbrev S16x128x2048 : Shape := ⟨3, ![16, 128, 2048]⟩
abbrev S16x2048x8192 : Shape := ⟨3, ![16, 2048, 8192]⟩
abbrev S16x1x8192 : Shape := ⟨3, ![16, 1, 8192]⟩
abbrev S16x8192x2048 : Shape := ⟨3, ![16, 8192, 2048]⟩
abbrev S16x1x2048 : Shape := ⟨3, ![16, 1, 2048]⟩
abbrev S1x128x2048 : Shape := ⟨3, ![1, 128, 2048]⟩
abbrev S1x2048x512 : Shape := ⟨3, ![1, 2048, 512]⟩
abbrev S1x1x512 : Shape := ⟨3, ![1, 1, 512]⟩
abbrev S1x512x2048 : Shape := ⟨3, ![1, 512, 2048]⟩
abbrev S1x1x2048 : Shape := ⟨3, ![1, 1, 2048]⟩
abbrev S128x2048 : Shape := ⟨2, ![128, 2048]⟩
abbrev S2048x512 : Shape := ⟨2, ![2048, 512]⟩
abbrev S128x512 : Shape := ⟨2, ![128, 512]⟩
abbrev S1x512 : Shape := ⟨2, ![1, 512]⟩
abbrev S512x2048 : Shape := ⟨2, ![512, 2048]⟩
abbrev S1x2048 : Shape := ⟨2, ![1, 2048]⟩

abbrev nBuf : Space → Nat
  | .hbm => 8
  | .vmem => 16
  | .smem => 0
  | _ => 0

abbrev bufTy : (tb : Table) → Fin (tcTables nBuf tb) → BufTy
  | .hbm, ⟨0, _⟩ => ⟨S16x128x2048, .f32⟩
  | .hbm, ⟨1, _⟩ => ⟨S16x2048x8192, .f32⟩
  | .hbm, ⟨2, _⟩ => ⟨S16x1x8192, .f32⟩
  | .hbm, ⟨3, _⟩ => ⟨S16x2048x8192, .f32⟩
  | .hbm, ⟨4, _⟩ => ⟨S16x1x8192, .f32⟩
  | .hbm, ⟨5, _⟩ => ⟨S16x8192x2048, .f32⟩
  | .hbm, ⟨6, _⟩ => ⟨S16x1x2048, .f32⟩
  | .hbm, ⟨7, _⟩ => ⟨S16x128x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x1x512, .f32⟩
  | .local _ .vmem, ⟨5, _⟩ => ⟨S1x1x512, .f32⟩
  | .local _ .vmem, ⟨6, _⟩ => ⟨S1x2048x512, .f32⟩
  | .local _ .vmem, ⟨7, _⟩ => ⟨S1x2048x512, .f32⟩
  | .local _ .vmem, ⟨8, _⟩ => ⟨S1x1x512, .f32⟩
  | .local _ .vmem, ⟨9, _⟩ => ⟨S1x1x512, .f32⟩
  | .local _ .vmem, ⟨10, _⟩ => ⟨S1x512x2048, .f32⟩
  | .local _ .vmem, ⟨11, _⟩ => ⟨S1x512x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x128x2048, .f32⟩
  | .local _ .vmem, ⟨15, _⟩ => ⟨S1x128x2048, .f32⟩
  | _, _ => ⟨S16x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v27 : BitVec 1 := Scalar.cmpi .eq arg1 c0_i32
  let v28 : BitVec 32 := Scalar.extui v27
  let c0_i32_19 : BitVec 32 := 0#32
  let v29 : BitVec 1 := Scalar.cmpi .ne v28 c0_i32_19
  v29

def k0_cond2 (i : grid0.Coords) : BitVec 1 :=
  let arg1 : BitVec 32 := BitVec.ofNat 32 (i 1).val
  let c0_i32_20 : BitVec 32 := 0#32
  let v30 : BitVec 1 := Scalar.cmpi .ne arg1 c0_i32_20
  let v31 : BitVec 32 := Scalar.extui v30
  let c0_i32_21 : BitVec 32 := 0#32
  let v32 : BitVec 1 := Scalar.cmpi .ne v31 c0_i32_21
  v32

def k0_cond3 (i : grid0.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_22 : BitVec 32 := 0#32
  let v35 : BitVec 1 := Scalar.cmpi .ne v34 c0_i32_22
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S128x512 : S1x512.Broadcasts S128x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S128x2048_S1x128x2048 : S128x2048.ShapeCasts S1x128x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S128x2048 : S1x2048.Broadcasts S128x2048
  dot_S128x2048_S2048x512_S128x512_1_0_0_1_n_n_wf : DotDims.WF S128x2048 S2048x512 S128x512 [1] [0] [0] [1] [] []
  dot_S128x512_S512x2048_S128x2048_1_0_0_1_n_n_wf : DotDims.WF S128x512 S512x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S16x128x2048.size a
  hwx0_0 : ∀ i : grid0.Coords, EltTy.bits .f32 = 32 ∨ (Rect.block (s := S16x128x2048) S1x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S16x2048x8192.size a
  hwx0_1 : ∀ i : grid0.Coords, EltTy.bits .f32 = 32 ∨ (Rect.block (s := S16x2048x8192) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S16x1x8192.size a
  hwx0_2 : ∀ i : grid0.Coords, EltTy.bits .f32 = 32 ∨ (Rect.block (s := S16x1x8192) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S16x2048x8192.size a
  hwx0_3 : ∀ i : grid0.Coords, EltTy.bits .f32 = 32 ∨ (Rect.block (s := S16x2048x8192) S1x2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S16x1x8192.size a
  hwx0_4 : ∀ i : grid0.Coords, EltTy.bits .f32 = 32 ∨ (Rect.block (s := S16x1x8192) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S16x8192x2048.size a
  hwx0_5 : ∀ i : grid0.Coords, EltTy.bits .f32 = 32 ∨ (Rect.block (s := S16x8192x2048) S1x512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x2048.size a ≤ S16x1x2048.size a
  hwx0_6 : ∀ i : grid0.Coords, EltTy.bits .f32 = 32 ∨ (Rect.block (s := S16x1x2048) S1x1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x2048.size a ≤ S16x128x2048.size a
  hwx0_7 : ∀ i : grid0.Coords, EltTy.bits .f32 = 32 ∨ (Rect.block (s := S16x128x2048) S1x128x2048.size (cc0_transform_7 i) (hinb0_7 i)).WholeWords (EltTy.packing .f32)

variable [Facts₀]

def dot_S128x2048_S2048x512_S128x512_1_0_0_1_n_n : DotDims S128x2048 S2048x512 S128x512 where
  lhsContracting := [1]
  rhsContracting := [0]
  lhsNonContracting := [0]
  rhsNonContracting := [1]
  lhsBatch := []
  rhsBatch := []
  wf := dot_S128x2048_S2048x512_S128x512_1_0_0_1_n_n_wf
def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf

abbrev win0_0 : Pipeline.Window sig grid0 :=
  Pipeline.Window.ofSpec (Memref.whole main_arg0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x128x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond1 i == 1#1) && !(k0_cond2 i == 1#1) && !(k0_cond3 i == 1#1) | ⟨_ + 8, h⟩ => absurd h (Nat.not_lt.2 (Nat.le_add_left _ _))

class Facts : Prop extends Facts₀ where

variable [Facts]
-- ==== ReferenceIdeal.lean ====
abbrev S16x128x2048 : Shape := ⟨3, ![16, 128, 2048]⟩
abbrev S16x2048x8192 : Shape := ⟨3, ![16, 2048, 8192]⟩
abbrev S16x1x8192 : Shape := ⟨3, ![16, 1, 8192]⟩
abbrev S16x8192x2048 : Shape := ⟨3, ![16, 8192, 2048]⟩
abbrev S16x1x2048 : Shape := ⟨3, ![16, 1, 2048]⟩
abbrev S16x128x8192 : Shape := ⟨3, ![16, 128, 8192]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S16x128x2048, .f32⟩
  | .hbm, ⟨1, _⟩ => ⟨S16x2048x8192, .f32⟩
  | .hbm, ⟨2, _⟩ => ⟨S16x1x8192, .f32⟩
  | .hbm, ⟨3, _⟩ => ⟨S16x2048x8192, .f32⟩
  | .hbm, ⟨4, _⟩ => ⟨S16x1x8192, .f32⟩
  | .hbm, ⟨5, _⟩ => ⟨S16x8192x2048, .f32⟩
  | .hbm, ⟨6, _⟩ => ⟨S16x1x2048, .f32⟩
  | .hbm, ⟨7, _⟩ => ⟨S16x128x8192, .f32⟩
  | .hbm, ⟨8, _⟩ => ⟨S16x128x8192, .f32⟩
  | .hbm, ⟨9, _⟩ => ⟨S16x128x8192, .f32⟩
  | .hbm, ⟨10, _⟩ => ⟨S16x128x8192, .f32⟩
  | .hbm, ⟨11, _⟩ => ⟨S16x128x8192, .f32⟩
  | .hbm, ⟨12, _⟩ => ⟨S16x128x8192, .f32⟩
  | .hbm, ⟨13, _⟩ => ⟨S16x128x8192, .f32⟩
  | .hbm, ⟨14, _⟩ => ⟨S16x128x8192, .f32⟩
  | .hbm, ⟨15, _⟩ => ⟨S_, .f32⟩
  | .hbm, ⟨16, _⟩ => ⟨S16x128x8192, .f32⟩
  | .hbm, ⟨17, _⟩ => ⟨S16x128x8192, .f32⟩
  | .hbm, ⟨18, _⟩ => ⟨S_, .f32⟩
  | .hbm, ⟨19, _⟩ => ⟨S16x128x8192, .f32⟩
  | .hbm, ⟨20, _⟩ => ⟨S16x128x8192, .f32⟩
  | .hbm, ⟨21, _⟩ => ⟨S16x128x8192, .f32⟩
  | .hbm, ⟨22, _⟩ => ⟨S16x128x8192, .f32⟩
  | .hbm, ⟨23, _⟩ => ⟨S16x128x2048, .f32⟩
  | .hbm, ⟨24, _⟩ => ⟨S16x128x2048, .f32⟩
  | .hbm, ⟨25, _⟩ => ⟨S16x128x2048, .f32⟩
  | _, _ => ⟨S16x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩

abbrev nD : Nat := 1
abbrev τ : Topo := Topo.v7x

variable {F : FTy → Type} [FloatOps F]

class Facts₀ : Prop where
  bcast_S16x1x8192_S16x128x8192_0_1_2 : S16x1x8192.BroadcastsInDim S16x128x8192 (![0, 1, 2] : Fin 3 → Fin S16x128x8192.rank)
  bcast_S_S16x128x8192 : S_.BroadcastsInDim S16x128x8192 (![] : Fin 0 → Fin S16x128x8192.rank)
  bcast_S16x1x2048_S16x128x2048_0_1_2 : S16x1x2048.BroadcastsInDim S16x128x2048 (![0, 1, 2] : Fin 3 → Fin S16x128x2048.rank)
  dot_S16x128x2048_S16x2048x8192_S16x128x8192_2_1_1_2_0_0_wf : DotDims.WF S16x128x2048 S16x2048x8192 S16x128x8192 [2] [1] [1] [2] [0] [0]
  dot_S16x128x8192_S16x8192x2048_S16x128x2048_2_1_1_2_0_0_wf : DotDims.WF S16x128x8192 S16x8192x2048 S16x128x2048 [2] [1] [1] [2] [0] [0]

variable [Facts₀]

def dot_S16x128x2048_S16x2048x8192_S16x128x8192_2_1_1_2_0_0 : DotDims S16x128x2048 S16x2048x8192 S16x128x8192 where
  lhsContracting := [2]
  rhsContracting := [1]
  lhsNonContracting := [1]
  rhsNonContracting := [2]
  lhsBatch := [0]
  rhsBatch := [0]
  wf := dot_S16x128x2048_S16x2048x8192_S16x128x8192_2_1_1_2_0_0_wf
def dot_S16x128x8192_S16x8192x2048_S16x128x2048_2_1_1_2_0_0 : DotDims S16x128x8192 S16x8192x2048 S16x128x2048 where
  lhsContracting := [2]
  rhsContracting := [1]
  lhsNonContracting := [1]
  rhsNonContracting := [2]
  lhsBatch := [0]
  rhsBatch := [0]
  wf := dot_S16x128x8192_S16x8192x2048_S16x128x2048_2_1_1_2_0_0_wf

class Facts : Prop extends Facts₀ where

variable [Facts]
-- ==== Proof.K.Cases.lean ====
/-
  The grid of the expert MLP kernel is 16 experts by 16 tiles of the hidden axis, walked expert by expert, the
  tile index innermost: point `t` works on expert `t / 16` and hidden tile `t % 16`. The body branches three times
  on the tile index alone — "first tile" (the output block is overwritten with the tile's partial product),
  "a later tile" (the partial product is added to the block), "last tile" (the output bias is added). Here these
  conditions are decided over the whole grid, once, as arithmetic of the point's number, and the staging memrefs
  the pipeline hands the body at a point are named.
-/
import proofs.«127655_j86543591014908_2_alg».proof.Proof.Gen.Kernel.Frame
import proofs.«127655_j86543591014908_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch is taken exactly at the first hidden tile of an expert, -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)
/-- the second at every other tile, -/
theorem later_iff : ∀ t : Fin cfg0.N, k0_cond2 (grid0.coords t) = 1#1 ↔ t.val % 16 ≠ 0 :=
  (by decide +kernel : ∀ t : Fin grid0.N, k0_cond2 (grid0.coords t) = 1#1 ↔ t.val % 16 ≠ 0)
/-- the third at the last tile. -/
theorem last_iff : ∀ t : Fin cfg0.N, k0_cond3 (grid0.coords t) = 1#1 ↔ t.val % 16 = 15 :=
  (by decide +kernel : ∀ t : Fin grid0.N, k0_cond3 (grid0.coords t) = 1#1 ↔ t.val % 16 = 15)

/-- The body stores into the output block at every point (one of the first two branches is always taken), so the
    output window is nowhere idle. -/
theorem never_idle (i : cfg0.grid.Coords) : cfg0.idle 7 i = false := by
  show (!(k0_cond1 i == 1#1) && !(k0_cond2 i == 1#1) && !(k0_cond3 i == 1#1)) = false
  unfold k0_cond1 k0_cond2 k0_cond3
  generalize (i 1 : Fin 16) = j
  revert j
  decide +kernel

/-- One staging buffer of the output window, through which its contents are stated. -/
abbrev VOut : View sig .tc .vmem S1x128x2048 .f32 := (Memref.whole cc0_stg7_0 : Memref sig .tc .vmem S1x128x2048 .f32).view

/-- Each window's current staging memref at point `t`, as the pipeline passes it to the body, and its wholeness. -/
abbrev ms0 (t : Fin cfg0.N) : Memref sig .tc .vmem S1x128x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128x2048 .f32 := win0_7.stage (cfg0.slots t 7)
abbrev hs7 (t : Fin cfg0.N) : (ms7 t).IsWhole := hstage0_7 ((cfg0.slots t 7).cast nbuf0_7)

end Cert.Kernel.Body

end
-- ==== Proof.K.RunFirst.lean ====
/-
  The kernel body run once, symbolically, at the first hidden tile of an expert: on whole staging memrefs holding
  the seven input blocks, the body loads, computes and stores, and returns every input buffer as it found it and the
  output buffer with a list of stores written into it. The list is found by the run itself.
-/
import proofs.«127655_j86543591014908_2_alg».proof.Proof.K.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes into the output's staging memref at the first hidden tile of an expert, last first, with the proof that the body
    runs to its continuation holding the inputs unchanged and the output buffer with those stores written. -/
noncomputable def kernelRunFirst (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : k0_cond1 i = 1#1) (hc2 : ¬k0_cond2 i = 1#1) (hc3 : ¬k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) :
    { L : List (View.Piece (Elt F) S1x128x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L)) -∗ K ⟨⟩))
          ⊢ wp frame (wpE (defs₀ (F := F)) Variants.none c none) E (cc0__moe_kernel i arg2 harg2 arg3 harg3 arg4 harg4 arg5 harg5 arg6 harg6 arg7 harg7 arg8 harg8 arg9 harg9) K } := by
  refine ⟨?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.Kernel.Body

end
-- ==== Proof.K.RunLater.lean ====
/-
  The kernel body run once, symbolically, at a hidden tile that is neither the first nor the last of an expert: on whole staging memrefs holding
  the seven input blocks, the body loads, computes and stores, and returns every input buffer as it found it and the
  output buffer with a list of stores written into it. The list is found by the run itself.
-/
import proofs.«127655_j86543591014908_2_alg».proof.Proof.K.RunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes into the output's staging memref at a hidden tile that is neither the first nor the last of an expert, last first, with the proof that the body
    runs to its continuation holding the inputs unchanged and the output buffer with those stores written. -/
noncomputable def kernelRunLater (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : ¬k0_cond1 i = 1#1) (hc2 : k0_cond2 i = 1#1) (hc3 : ¬k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) (xo : Vec F S1x128x2048 .f32) :
    { L : List (View.Piece (Elt F) S1x128x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L)) -∗ K ⟨⟩))
          ⊢ wp frame (wpE (defs₀ (F := F)) Variants.none c none) E (cc0__moe_kernel i arg2 harg2 arg3 harg3 arg4 harg4 arg5 harg5 arg6 harg6 arg7 harg7 arg8 harg8 arg9 harg9) K } := by
  refine ⟨?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.Kernel.Body

end
-- ==== Proof.K.RunLast.lean ====
/-
  The kernel body run once, symbolically, at the last hidden tile of an expert: on whole staging memrefs holding
  the seven input blocks, the body loads, computes and stores, and returns every input buffer as it found it and the
  output buffer with a list of stores written into it. The list is found by the run itself.
-/
import proofs.«127655_j86543591014908_2_alg».proof.Proof.K.RunLater

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes into the output's staging memref at the last hidden tile of an expert, last first, with the proof that the body
    runs to its continuation holding the inputs unchanged and the output buffer with those stores written. -/
noncomputable def kernelRunLast (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : ¬k0_cond1 i = 1#1) (hc2 : k0_cond2 i = 1#1) (hc3 : k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) (xo : Vec F S1x128x2048 .f32) :
    { L : List (View.Piece (Elt F) S1x128x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L)) -∗ K ⟨⟩))
          ⊢ wp frame (wpE (defs₀ (F := F)) Variants.none c none) E (cc0__moe_kernel i arg2 harg2 arg3 harg3 arg4 harg4 arg5 harg5 arg6 harg6 arg7 harg7 arg8 harg8 arg9 harg9) K } := by
  refine ⟨?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.Kernel.Body

end
-- ==== Proof.K.Frame.lean ====
/-
  The frame of the expert MLP kernel: every execution of the program runs to the end without a fault and leaves the
  seven argument arrays as they were.

  The output block of expert `e` stays in its staging buffer over the expert's 16 hidden tiles and is written back
  after the last one. What the buffer holds after point `t` is stated by recursion on the point: at a first tile
  what the run of the first case stores, at a later tile what the run of that case stores given what the point
  before left. With this as the proof data the body obligation holds at every point by cases on the tile index,
  and the library's launch theorem gives the run.
-/
import proofs.«127655_j86543591014908_2_alg».proof.Proof.K.RunLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's staging buffer -/

/-- The stores of the first case tile the output block, so they cover it. -/
theorem coverFirst (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : k0_cond1 i = 1#1) (hc2 : ¬k0_cond2 i = 1#1) (hc3 : ¬k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) (y : S1x128x2048.Idx) :
    ∃ pc ∈ (kernelRunFirst c i arg2 harg2 arg3 harg3 arg4 harg4 arg5 harg5 arg6 harg6 arg7 harg7 arg8 harg8 arg9 harg9 hc1 hc2 hc3 x0 x1 x2 x3 x4 x5 x6).1, y ∈ pc.1.set :=
  View.cover_of_tiledL (kernelRunFirst c i arg2 harg2 arg3 harg3 arg4 harg4 arg5 harg5 arg6 harg6 arg7 harg7 arg8 harg8 arg9 harg9 hc1 hc2 hc3 x0 x1 x2 x3 x4 x5 x6).1 S1x128x2048.size (by sl_kernel_rfl) y

/-- What the first case leaves in the output's staging buffer: its stores read back. -/
def outFirst (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : k0_cond1 i = 1#1) (hc2 : ¬k0_cond2 i = 1#1) (hc3 : ¬k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) : Vec F S1x128x2048 .f32 :=
  VOut.read (Elt F) (VOut.writes (Elt F) VOut.junk (kernelRunFirst c i arg2 harg2 arg3 harg3 arg4 harg4 arg5 harg5 arg6 harg6 arg7 harg7 arg8 harg8 arg9 harg9 hc1 hc2 hc3 x0 x1 x2 x3 x4 x5 x6).1)

/-- The stores of the middle case tile the output block. -/
theorem coverLater (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : ¬k0_cond1 i = 1#1) (hc2 : k0_cond2 i = 1#1) (hc3 : ¬k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) (xo : Vec F S1x128x2048 .f32) (y : S1x128x2048.Idx) :
    ∃ pc ∈ (kernelRunLater c i arg2 harg2 arg3 harg3 arg4 harg4 arg5 harg5 arg6 harg6 arg7 harg7 arg8 harg8 arg9 harg9 hc1 hc2 hc3 x0 x1 x2 x3 x4 x5 x6 xo).1, y ∈ pc.1.set :=
  View.cover_of_tiledL (kernelRunLater c i arg2 harg2 arg3 harg3 arg4 harg4 arg5 harg5 arg6 harg6 arg7 harg7 arg8 harg8 arg9 harg9 hc1 hc2 hc3 x0 x1 x2 x3 x4 x5 x6 xo).1 S1x128x2048.size (by sl_kernel_rfl) y

/-- What the middle case leaves in the output's staging buffer, given what it found there. -/
def outLater (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : ¬k0_cond1 i = 1#1) (hc2 : k0_cond2 i = 1#1) (hc3 : ¬k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) (xo : Vec F S1x128x2048 .f32) : Vec F S1x128x2048 .f32 :=
  VOut.read (Elt F) (VOut.writes (Elt F) VOut.junk (kernelRunLater c i arg2 harg2 arg3 harg3 arg4 harg4 arg5 harg5 arg6 harg6 arg7 harg7 arg8 harg8 arg9 harg9 hc1 hc2 hc3 x0 x1 x2 x3 x4 x5 x6 xo).1)

/-- The stores of the last case tile the output block. -/
theorem coverLast (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : ¬k0_cond1 i = 1#1) (hc2 : k0_cond2 i = 1#1) (hc3 : k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) (xo : Vec F S1x128x2048 .f32) (y : S1x128x2048.Idx) :
    ∃ pc ∈ (kernelRunLast c i arg2 harg2 arg3 harg3 arg4 harg4 arg5 harg5 arg6 harg6 arg7 harg7 arg8 harg8 arg9 harg9 hc1 hc2 hc3 x0 x1 x2 x3 x4 x5 x6 xo).1, y ∈ pc.1.set :=
  View.cover_of_tiledL (kernelRunLast c i arg2 harg2 arg3 harg3 arg4 harg4 arg5 harg5 arg6 harg6 arg7 harg7 arg8 harg8 arg9 harg9 hc1 hc2 hc3 x0 x1 x2 x3 x4 x5 x6 xo).1 S1x128x2048.size (by sl_kernel_rfl) y

/-- What the last case leaves in the output's staging buffer, given what it found there. -/
def outLast (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : ¬k0_cond1 i = 1#1) (hc2 : k0_cond2 i = 1#1) (hc3 : k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) (xo : Vec F S1x128x2048 .f32) : Vec F S1x128x2048 .f32 :=
  VOut.read (Elt F) (VOut.writes (Elt F) VOut.junk (kernelRunLast c i arg2 harg2 arg3 harg3 arg4 harg4 arg5 harg5 arg6 harg6 arg7 harg7 arg8 harg8 arg9 harg9 hc1 hc2 hc3 x0 x1 x2 x3 x4 x5 x6 xo).1)

/-! ## The case a point is in, from its number -/

theorem first_of (t : Fin cfg0.N) (h0 : t.val % 16 = 0) :
    k0_cond1 (grid0.coords t) = 1#1 ∧ ¬k0_cond2 (grid0.coords t) = 1#1 ∧ ¬k0_cond3 (grid0.coords t) = 1#1 :=
  ⟨(first_iff t).mpr h0, fun h => (later_iff t).mp h h0, fun h => by have := (last_iff t).mp h; omega⟩

theorem later_of (t : Fin cfg0.N) (h0 : ¬t.val % 16 = 0) (h15 : ¬t.val % 16 = 15) :
    ¬k0_cond1 (grid0.coords t) = 1#1 ∧ k0_cond2 (grid0.coords t) = 1#1 ∧ ¬k0_cond3 (grid0.coords t) = 1#1 :=
  ⟨fun h => h0 ((first_iff t).mp h), (later_iff t).mpr h0, fun h => h15 ((last_iff t).mp h)⟩

theorem last_of (t : Fin cfg0.N) (h15 : t.val % 16 = 15) :
    ¬k0_cond1 (grid0.coords t) = 1#1 ∧ k0_cond2 (grid0.coords t) = 1#1 ∧ k0_cond3 (grid0.coords t) = 1#1 :=
  ⟨fun h => by have := (first_iff t).mp h; omega, (later_iff t).mpr (by omega), (last_iff t).mpr h15⟩

/-! ## What the output's staging buffer holds after each point -/

/-- The accumulation, by recursion on the point's number: the case the tile index selects, run at the point's
    staging memrefs and input blocks; a later tile starts from what the point before left. -/
def outsAt (c : Dev nD) : (n : ℕ) → n < cfg0.N → Vec F S1x128x2048 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (first_of ⟨0, hn⟩ (Nat.zero_mod _)).1 (first_of ⟨0, hn⟩ (Nat.zero_mod _)).2.1 (first_of ⟨0, hn⟩ (Nat.zero_mod _)).2.2 (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 16 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (first_of ⟨n + 1, hn⟩ h0).1 (first_of ⟨n + 1, hn⟩ h0).2.1 (first_of ⟨n + 1, hn⟩ h0).2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else if h15 : (n + 1) % 16 = 15 then
      outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (last_of ⟨n + 1, hn⟩ h15).1 (last_of ⟨n + 1, hn⟩ h15).2.1 (last_of ⟨n + 1, hn⟩ h15).2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn))
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (later_of ⟨n + 1, hn⟩ h0 h15).1 (later_of ⟨n + 1, hn⟩ h0 h15).2.1 (later_of ⟨n + 1, hn⟩ h0 h15).2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn))

/-- At a first tile: the first case's contents. -/
theorem outsAt_first (c : Dev nD) (t : Fin cfg0.N) (h0 : t.val % 16 = 0) :
    outsAt m c t.val t.isLt = outFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (first_of t h0).1 (first_of t h0).2.1 (first_of t h0).2.2 (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

/-- At a middle tile: the middle case's contents over what the point before left. -/
theorem outsAt_later (c : Dev nD) (t : Fin cfg0.N) (h0 : ¬t.val % 16 = 0) (h15 : ¬t.val % 16 = 15) :
    outsAt m c t.val t.isLt = outLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (later_of t h0 h15).1 (later_of t h0 h15).2.1 (later_of t h0 h15).2.2 (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h15).trans rfl)

/-- At a last tile: the last case's contents over what the point before left. -/
theorem outsAt_last (c : Dev nD) (t : Fin cfg0.N) (h15 : t.val % 16 = 15) :
    outsAt m c t.val t.isLt = outLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (last_of t h15).1 (last_of t h15).2.1 (last_of t h15).2.2 (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)) := by
  obtain ⟨n, hn⟩ := t
  cases n with
  | zero => exact absurd h15 (by dsimp only; omega)
  | succ n => exact (dif_neg (by dsimp only at h15 ⊢; omega)).trans ((dif_pos h15).trans rfl)

/-! ## The pipeline's proof data -/

/-- The proof data of the pipeline on core `c`: the arrays as the region finds them; after the body at point `t`
    each input's buffer at its block and the output's at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outsAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- At a tile that is not the first, the output's staging buffer holds what the body left at the point before:
    the block is written back only after a last tile, and the window is live and uncut. -/
theorem before7_kept (c : Dev nD) (t : Fin cfg0.N) (h0 : ¬t.val % 16 = 0) (d) :
    (dats m 0 c).before 7 t d = outsAt m c (t.val - 1) (Nat.lt_of_le_of_lt (Nat.sub_le _ _) t.isLt) := by
  have hN : t.val < 256 := lt_of_lt_of_eq t.isLt (show cfg0.N = 256 from N_0)
  rw [Dat.before_out_kept _ 7 rfl t (fun h => h0 (by rw [h])) (Bool.eq_false_iff.mpr fun h => by have := (flush0_7 _).mp h; dsimp only at this; omega)
    never_idle (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1600000 in
/-- The body at any point: the inputs' memrefs hold their blocks; the tile index says which case the point is in; at
    a tile that is not the first the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  by_cases h0 : t.val % 16 = 0
  · rw [outsAt_first m c t h0]
    unfold outFirst
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRunFirst c (grid0.coords t) _ _ _ _ _ _ _ _ _ _ _ _ _ _ _ _ (first_of t h0).1 (first_of t h0).2.1 (first_of t h0).2.2 (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverFirst c _ _ _ _ _ _ _ _ _ _ _ _ _ _ _ _ _ _ _ _ _ _ _ _ _ _ _)
  · simp only [before7_kept m c t h0]
    by_cases h15 : t.val % 16 = 15
    · rw [outsAt_last m c t h15]
      unfold outLast
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunLast c (grid0.coords t) _ _ _ _ _ _ _ _ _ _ _ _ _ _ _ _ (last_of t h15).1 (last_of t h15).2.1 (last_of t h15).2.2 (iblk m c 0 t) (iblk m c 1 t) (iblk m c 2 t) (iblk m c 3 t) (iblk m c 4 t) (iblk m c 5 t) (iblk m c 6 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverLast c _ _ _ _ _ _ _ _ _ _ _ _ _ _ _ _ _ _ _ _ _ _ _ _ _ _ _ _)
    · rw [outsAt_later m c t h0 h15]
      unfold outLater
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunLater c (grid0.coords t) _ _ _ _ _ _ _ _ _ _ _ _ _ _ _ _ (later_of t h0 h15).1 (later_of t h0 h15).2.1 (later_of t h0 h15).2.2 (iblk m c 0 t) (iblk m c 1 t) (iblk m c 2 t) (iblk m c 3 t) (iblk m c 4 t) (iblk m c 5 t) (iblk m c 6 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverLater c _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  have h7 : cfg0.idle 7 (cfg0.grid.coords t) = false := never_idle _
  simp only [h7]
  rw [show idle0 7 (grid0.coords t) = false from never_idle (grid0.coords t)]
  exact sound_body m c t

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body

end
-- ==== Proof.KI.Cases.lean ====
/-
  The grid of the expert MLP kernel is 16 experts by 16 tiles of the hidden axis, walked expert by expert, the
  tile index innermost: point `t` works on expert `t / 16` and hidden tile `t % 16`. The body branches three times
  on the tile index alone — "first tile" (the output block is overwritten with the tile's partial product),
  "a later tile" (the partial product is added to the block), "last tile" (the output bias is added). Here these
  conditions are decided over the whole grid, once, as arithmetic of the point's number, and the staging memrefs
  the pipeline hands the body at a point are named.
-/
import proofs.«127655_j86543591014908_2_alg».proof.Proof.Gen.KernelIdeal.Frame
import proofs.«127655_j86543591014908_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch is taken exactly at the first hidden tile of an expert, -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)
/-- the second at every other tile, -/
theorem later_iff : ∀ t : Fin cfg0.N, k0_cond2 (grid0.coords t) = 1#1 ↔ t.val % 16 ≠ 0 :=
  (by decide +kernel : ∀ t : Fin grid0.N, k0_cond2 (grid0.coords t) = 1#1 ↔ t.val % 16 ≠ 0)
/-- the third at the last tile. -/
theorem last_iff : ∀ t : Fin cfg0.N, k0_cond3 (grid0.coords t) = 1#1 ↔ t.val % 16 = 15 :=
  (by decide +kernel : ∀ t : Fin grid0.N, k0_cond3 (grid0.coords t) = 1#1 ↔ t.val % 16 = 15)

/-- The body stores into the output block at every point (one of the first two branches is always taken), so the
    output window is nowhere idle. -/
theorem never_idle (i : cfg0.grid.Coords) : cfg0.idle 7 i = false := by
  show (!(k0_cond1 i == 1#1) && !(k0_cond2 i == 1#1) && !(k0_cond3 i == 1#1)) = false
  unfold k0_cond1 k0_cond2 k0_cond3
  generalize (i 1 : Fin 16) = j
  revert j
  decide +kernel

/-- One staging buffer of the output window, through which its contents are stated. -/
abbrev VOut : View sig .tc .vmem S1x128x2048 .f32 := (Memref.whole cc0_stg7_0 : Memref sig .tc .vmem S1x128x2048 .f32).view

/-- Each window's current staging memref at point `t`, as the pipeline passes it to the body, and its wholeness. -/
abbrev ms0 (t : Fin cfg0.N) : Memref sig .tc .vmem S1x128x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128x2048 .f32 := win0_7.stage (cfg0.slots t 7)
abbrev hs7 (t : Fin cfg0.N) : (ms7 t).IsWhole := hstage0_7 ((cfg0.slots t 7).cast nbuf0_7)

end Cert.KernelIdeal.Body

end
-- ==== Proof.KI.RunFirst.lean ====
/-
  The kernel body run once, symbolically, at the first hidden tile of an expert: on whole staging memrefs holding
  the seven input blocks, the body loads, computes and stores, and returns every input buffer as it found it and the
  output buffer with a list of stores written into it. The list is found by the run itself.
-/
import proofs.«127655_j86543591014908_2_alg».proof.Proof.KI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes into the output's staging memref at the first hidden tile of an expert, last first, with the proof that the body
    runs to its continuation holding the inputs unchanged and the output buffer with those stores written. -/
noncomputable def kernelRunFirst (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : k0_cond1 i = 1#1) (hc2 : ¬k0_cond2 i = 1#1) (hc3 : ¬k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) :
    { L : List (View.Piece (Elt F) S1x128x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L)) -∗ K ⟨⟩))
          ⊢ wp frame (wpE (defs₀ (F := F)) Variants.none c none) E (cc0__moe_kernel i arg2 harg2 arg3 harg3 arg4 harg4 arg5 harg5 arg6 harg6 arg7 harg7 arg8 harg8 arg9 harg9) K } := by
  refine ⟨?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.KernelIdeal.Body

end
-- ==== Proof.KI.RunLater.lean ====
/-
  The kernel body run once, symbolically, at a hidden tile that is neither the first nor the last of an expert: on whole staging memrefs holding
  the seven input blocks, the body loads, computes and stores, and returns every input buffer as it found it and the
  output buffer with a list of stores written into it. The list is found by the run itself.
-/
import proofs.«127655_j86543591014908_2_alg».proof.Proof.KI.RunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes into the output's staging memref at a hidden tile that is neither the first nor the last of an expert, last first, with the proof that the body
    runs to its continuation holding the inputs unchanged and the output buffer with those stores written. -/
noncomputable def kernelRunLater (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : ¬k0_cond1 i = 1#1) (hc2 : k0_cond2 i = 1#1) (hc3 : ¬k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) (xo : Vec F S1x128x2048 .f32) :
    { L : List (View.Piece (Elt F) S1x128x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L)) -∗ K ⟨⟩))
          ⊢ wp frame (wpE (defs₀ (F := F)) Variants.none c none) E (cc0__moe_kernel i arg2 harg2 arg3 harg3 arg4 harg4 arg5 harg5 arg6 harg6 arg7 harg7 arg8 harg8 arg9 harg9) K } := by
  refine ⟨?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.KernelIdeal.Body

end
-- ==== Proof.KI.RunLast.lean ====
/-
  The kernel body run once, symbolically, at the last hidden tile of an expert: on whole staging memrefs holding
  the seven input blocks, the body loads, computes and stores, and returns every input buffer as it found it and the
  output buffer with a list of stores written into it. The list is found by the run itself.
-/
import proofs.«127655_j86543591014908_2_alg».proof.Proof.KI.RunLater

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes into the output's staging memref at the last hidden tile of an expert, last first, with the proof that the body
    runs to its continuation holding the inputs unchanged and the output buffer with those stores written. -/
noncomputable def kernelRunLast (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : ¬k0_cond1 i = 1#1) (hc2 : k0_cond2 i = 1#1) (hc3 : k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) (xo : Vec F S1x128x2048 .f32) :
    { L : List (View.Piece (Elt F) S1x128x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L)) -∗ K ⟨⟩))
          ⊢ wp frame (wpE (defs₀ (F := F)) Variants.none c none) E (cc0__moe_kernel i arg2 harg2 arg3 harg3 arg4 harg4 arg5 harg5 arg6 harg6 arg7 harg7 arg8 harg8 arg9 harg9) K } := by
  refine ⟨?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.KernelIdeal.Body

end
-- ==== Proof.KI.Frame.lean ====
/-
  The frame of the expert MLP kernel: every execution of the program runs to the end without a fault and leaves the
  seven argument arrays as they were.

  The output block of expert `e` stays in its staging buffer over the expert's 16 hidden tiles and is written back
  after the last one. What the buffer holds after point `t` is stated by recursion on the point: at a first tile
  what the run of the first case stores, at a later tile what the run of that case stores given what the point
  before left. With this as the proof data the body obligation holds at every point by cases on the tile index,
  and the library's launch theorem gives the run.
-/
import proofs.«127655_j86543591014908_2_alg».proof.Proof.KI.RunLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's staging buffer -/

/-- The stores of the first case tile the output block, so they cover it. -/
theorem coverFirst (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : k0_cond1 i = 1#1) (hc2 : ¬k0_cond2 i = 1#1) (hc3 : ¬k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) (y : S1x128x2048.Idx) :
    ∃ pc ∈ (kernelRunFirst c i arg2 harg2 arg3 harg3 arg4 harg4 arg5 harg5 arg6 harg6 arg7 harg7 arg8 harg8 arg9 harg9 hc1 hc2 hc3 x0 x1 x2 x3 x4 x5 x6).1, y ∈ pc.1.set :=
  View.cover_of_tiledL (kernelRunFirst c i arg2 harg2 arg3 harg3 arg4 harg4 arg5 harg5 arg6 harg6 arg7 harg7 arg8 harg8 arg9 harg9 hc1 hc2 hc3 x0 x1 x2 x3 x4 x5 x6).1 S1x128x2048.size (by sl_kernel_rfl) y

/-- What the first case leaves in the output's staging buffer: its stores read back. -/
def outFirst (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : k0_cond1 i = 1#1) (hc2 : ¬k0_cond2 i = 1#1) (hc3 : ¬k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) : Vec F S1x128x2048 .f32 :=
  VOut.read (Elt F) (VOut.writes (Elt F) VOut.junk (kernelRunFirst c i arg2 harg2 arg3 harg3 arg4 harg4 arg5 harg5 arg6 harg6 arg7 harg7 arg8 harg8 arg9 harg9 hc1 hc2 hc3 x0 x1 x2 x3 x4 x5 x6).1)

/-- The stores of the middle case tile the output block. -/
theorem coverLater (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : ¬k0_cond1 i = 1#1) (hc2 : k0_cond2 i = 1#1) (hc3 : ¬k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) (xo : Vec F S1x128x2048 .f32) (y : S1x128x2048.Idx) :
    ∃ pc ∈ (kernelRunLater c i arg2 harg2 arg3 harg3 arg4 harg4 arg5 harg5 arg6 harg6 arg7 harg7 arg8 harg8 arg9 harg9 hc1 hc2 hc3 x0 x1 x2 x3 x4 x5 x6 xo).1, y ∈ pc.1.set :=
  View.cover_of_tiledL (kernelRunLater c i arg2 harg2 arg3 harg3 arg4 harg4 arg5 harg5 arg6 harg6 arg7 harg7 arg8 harg8 arg9 harg9 hc1 hc2 hc3 x0 x1 x2 x3 x4 x5 x6 xo).1 S1x128x2048.size (by sl_kernel_rfl) y

/-- What the middle case leaves in the output's staging buffer, given what it found there. -/
def outLater (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : ¬k0_cond1 i = 1#1) (hc2 : k0_cond2 i = 1#1) (hc3 : ¬k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) (xo : Vec F S1x128x2048 .f32) : Vec F S1x128x2048 .f32 :=
  VOut.read (Elt F) (VOut.writes (Elt F) VOut.junk (kernelRunLater c i arg2 harg2 arg3 harg3 arg4 harg4 arg5 harg5 arg6 harg6 arg7 harg7 arg8 harg8 arg9 harg9 hc1 hc2 hc3 x0 x1 x2 x3 x4 x5 x6 xo).1)

/-- The stores of the last case tile the output block. -/
theorem coverLast (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : ¬k0_cond1 i = 1#1) (hc2 : k0_cond2 i = 1#1) (hc3 : k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) (xo : Vec F S1x128x2048 .f32) (y : S1x128x2048.Idx) :
    ∃ pc ∈ (kernelRunLast c i arg2 harg2 arg3 harg3 arg4 harg4 arg5 harg5 arg6 harg6 arg7 harg7 arg8 harg8 arg9 harg9 hc1 hc2 hc3 x0 x1 x2 x3 x4 x5 x6 xo).1, y ∈ pc.1.set :=
  View.cover_of_tiledL (kernelRunLast c i arg2 harg2 arg3 harg3 arg4 harg4 arg5 harg5 arg6 harg6 arg7 harg7 arg8 harg8 arg9 harg9 hc1 hc2 hc3 x0 x1 x2 x3 x4 x5 x6 xo).1 S1x128x2048.size (by sl_kernel_rfl) y

/-- What the last case leaves in the output's staging buffer, given what it found there. -/
def outLast (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : ¬k0_cond1 i = 1#1) (hc2 : k0_cond2 i = 1#1) (hc3 : k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) (xo : Vec F S1x128x2048 .f32) : Vec F S1x128x2048 .f32 :=
  VOut.read (Elt F) (VOut.writes (Elt F) VOut.junk (kernelRunLast c i arg2 harg2 arg3 harg3 arg4 harg4 arg5 harg5 arg6 harg6 arg7 harg7 arg8 harg8 arg9 harg9 hc1 hc2 hc3 x0 x1 x2 x3 x4 x5 x6 xo).1)

/-! ## The case a point is in, from its number -/

theorem first_of (t : Fin cfg0.N) (h0 : t.val % 16 = 0) :
    k0_cond1 (grid0.coords t) = 1#1 ∧ ¬k0_cond2 (grid0.coords t) = 1#1 ∧ ¬k0_cond3 (grid0.coords t) = 1#1 :=
  ⟨(first_iff t).mpr h0, fun h => (later_iff t).mp h h0, fun h => by have := (last_iff t).mp h; omega⟩

theorem later_of (t : Fin cfg0.N) (h0 : ¬t.val % 16 = 0) (h15 : ¬t.val % 16 = 15) :
    ¬k0_cond1 (grid0.coords t) = 1#1 ∧ k0_cond2 (grid0.coords t) = 1#1 ∧ ¬k0_cond3 (grid0.coords t) = 1#1 :=
  ⟨fun h => h0 ((first_iff t).mp h), (later_iff t).mpr h0, fun h => h15 ((last_iff t).mp h)⟩

theorem last_of (t : Fin cfg0.N) (h15 : t.val % 16 = 15) :
    ¬k0_cond1 (grid0.coords t) = 1#1 ∧ k0_cond2 (grid0.coords t) = 1#1 ∧ k0_cond3 (grid0.coords t) = 1#1 :=
  ⟨fun h => by have := (first_iff t).mp h; omega, (later_iff t).mpr (by omega), (last_iff t).mpr h15⟩

/-! ## What the output's staging buffer holds after each point -/

/-- The accumulation, by recursion on the point's number: the case the tile index selects, run at the point's
    staging memrefs and input blocks; a later tile starts from what the point before left. -/
def outsAt (c : Dev nD) : (n : ℕ) → n < cfg0.N → Vec F S1x128x2048 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (first_of ⟨0, hn⟩ (Nat.zero_mod _)).1 (first_of ⟨0, hn⟩ (Nat.zero_mod _)).2.1 (first_of ⟨0, hn⟩ (Nat.zero_mod _)).2.2 (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 16 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (first_of ⟨n + 1, hn⟩ h0).1 (first_of ⟨n + 1, hn⟩ h0).2.1 (first_of ⟨n + 1, hn⟩ h0).2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else if h15 : (n + 1) % 16 = 15 then
      outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (last_of ⟨n + 1, hn⟩ h15).1 (last_of ⟨n + 1, hn⟩ h15).2.1 (last_of ⟨n + 1, hn⟩ h15).2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn))
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (later_of ⟨n + 1, hn⟩ h0 h15).1 (later_of ⟨n + 1, hn⟩ h0 h15).2.1 (later_of ⟨n + 1, hn⟩ h0 h15).2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn))

/-- At a first tile: the first case's contents. -/
theorem outsAt_first (c : Dev nD) (t : Fin cfg0.N) (h0 : t.val % 16 = 0) :
    outsAt m c t.val t.isLt = outFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (first_of t h0).1 (first_of t h0).2.1 (first_of t h0).2.2 (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

/-- At a middle tile: the middle case's contents over what the point before left. -/
theorem outsAt_later (c : Dev nD) (t : Fin cfg0.N) (h0 : ¬t.val % 16 = 0) (h15 : ¬t.val % 16 = 15) :
    outsAt m c t.val t.isLt = outLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (later_of t h0 h15).1 (later_of t h0 h15).2.1 (later_of t h0 h15).2.2 (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h15).trans rfl)

/-- At a last tile: the last case's contents over what the point before left. -/
theorem outsAt_last (c : Dev nD) (t : Fin cfg0.N) (h15 : t.val % 16 = 15) :
    outsAt m c t.val t.isLt = outLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (last_of t h15).1 (last_of t h15).2.1 (last_of t h15).2.2 (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)) := by
  obtain ⟨n, hn⟩ := t
  cases n with
  | zero => exact absurd h15 (by dsimp only; omega)
  | succ n => exact (dif_neg (by dsimp only at h15 ⊢; omega)).trans ((dif_pos h15).trans rfl)

/-! ## The pipeline's proof data -/

/-- The proof data of the pipeline on core `c`: the arrays as the region finds them; after the body at point `t`
    each input's buffer at its block and the output's at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outsAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- At a tile that is not the first, the output's staging buffer holds what the body left at the point before:
    the block is written back only after a last tile, and the window is live and uncut. -/
theorem before7_kept (c : Dev nD) (t : Fin cfg0.N) (h0 : ¬t.val % 16 = 0) (d) :
    (dats m 0 c).before 7 t d = outsAt m c (t.val - 1) (Nat.lt_of_le_of_lt (Nat.sub_le _ _) t.isLt) := by
  have hN : t.val < 256 := lt_of_lt_of_eq t.isLt (show cfg0.N = 256 from N_0)
  rw [Dat.before_out_kept _ 7 rfl t (fun h => h0 (by rw [h])) (Bool.eq_false_iff.mpr fun h => by have := (flush0_7 _).mp h; dsimp only at this; omega)
    never_idle (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1600000 in
/-- The body at any point: the inputs' memrefs hold their blocks; the tile index says which case the point is in; at
    a tile that is not the first the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  by_cases h0 : t.val % 16 = 0
  · rw [outsAt_first m c t h0]
    unfold outFirst
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRunFirst c (grid0.coords t) _ _ _ _ _ _ _ _ _ _ _ _ _ _ _ _ (first_of t h0).1 (first_of t h0).2.1 (first_of t h0).2.2 (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverFirst c _ _ _ _ _ _ _ _ _ _ _ _ _ _ _ _ _ _ _ _ _ _ _ _ _ _ _)
  · simp only [before7_kept m c t h0]
    by_cases h15 : t.val % 16 = 15
    · rw [outsAt_last m c t h15]
      unfold outLast
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunLast c (grid0.coords t) _ _ _ _ _ _ _ _ _ _ _ _ _ _ _ _ (last_of t h15).1 (last_of t h15).2.1 (last_of t h15).2.2 (iblk m c 0 t) (iblk m c 1 t) (iblk m c 2 t) (iblk m c 3 t) (iblk m c 4 t) (iblk m c 5 t) (iblk m c 6 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverLast c _ _ _ _ _ _ _ _ _ _ _ _ _ _ _ _ _ _ _ _ _ _ _ _ _ _ _ _)
    · rw [outsAt_later m c t h0 h15]
      unfold outLater
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunLater c (grid0.coords t) _ _ _ _ _ _ _ _ _ _ _ _ _ _ _ _ (later_of t h0 h15).1 (later_of t h0 h15).2.1 (later_of t h0 h15).2.2 (iblk m c 0 t) (iblk m c 1 t) (iblk m c 2 t) (iblk m c 3 t) (iblk m c 4 t) (iblk m c 5 t) (iblk m c 6 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverLater c _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  have h7 : cfg0.idle 7 (cfg0.grid.coords t) = false := never_idle _
  simp only [h7]
  rw [show idle0 7 (grid0.coords t) = false from never_idle (grid0.coords t)]
  exact sound_body m c t

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.KI.Pieces.lean ====
/-
  What each case of the body leaves in the output's staging buffer, as a value: the stores the symbolic runs found
  are whole-block stores, so the buffer ends holding the last store's payload, a pure term of the blocks loaded.
  At a first tile that is the tile's partial product; at a later tile the buffer's previous contents plus the
  partial product; at the last tile that sum plus the output bias row.
-/
import proofs.«127655_j86543591014908_2_alg».proof.Proof.KI.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

/-- At a first tile the buffer ends holding the tile's partial product (as a block of one expert). -/
theorem outFirst_eq (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : k0_cond1 i = 1#1) (hc2 : ¬k0_cond2 i = 1#1) (hc3 : ¬k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) :
    outFirst c i arg2 harg2 arg3 harg3 arg4 harg4 arg5 harg5 arg6 harg6 arg7 harg7 arg8 harg8 arg9 harg9 hc1 hc2 hc3 x0 x1 x2 x3 x4 x5 x6 = k0_pay4 x0 x1 x2 x3 x4 x5 := by
  unfold outFirst
  rw [View.read_writes_eq_canon _ _ _ (coverFirst c i arg2 harg2 arg3 harg3 arg4 harg4 arg5 harg5 arg6 harg6 arg7 harg7 arg8 harg8 arg9 harg9 hc1 hc2 hc3 x0 x1 x2 x3 x4 x5 x6)]
  unfold kernelRunFirst
  dsimp only
  rw [View.canon_unit_zero hz3]
  simp only [View.readAt_eq_ld, harg2.read_unread, harg3.read_unread, harg4.read_unread, harg5.read_unread, harg6.read_unread, harg7.read_unread, harg8.read_unread, harg9.read_unread, View.ld_unit_zero (S := S1x128x2048) hz3, View.ld_unit_zero (S := S1x2048x512) hz3, View.ld_unit_zero (S := S1x1x512) hz3, View.ld_unit_zero (S := S1x512x2048) hz3, View.ld_unit_zero (S := S1x1x2048) hz3]

/-- At a middle tile it ends holding what it held plus the tile's partial product. -/
theorem outLater_eq (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : ¬k0_cond1 i = 1#1) (hc2 : k0_cond2 i = 1#1) (hc3 : ¬k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) (xo : Vec F S1x128x2048 .f32) :
    outLater c i arg2 harg2 arg3 harg3 arg4 harg4 arg5 harg5 arg6 harg6 arg7 harg7 arg8 harg8 arg9 harg9 hc1 hc2 hc3 x0 x1 x2 x3 x4 x5 x6 xo = k0_pay1 (k0_pay3 x0 x1 x2 x3 x4 x5) xo := by
  unfold outLater
  rw [View.read_writes_eq_canon _ _ _ (coverLater c i arg2 harg2 arg3 harg3 arg4 harg4 arg5 harg5 arg6 harg6 arg7 harg7 arg8 harg8 arg9 harg9 hc1 hc2 hc3 x0 x1 x2 x3 x4 x5 x6 xo)]
  unfold kernelRunLater
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S1x128x2048) hz3, View.ld_unit_zero (S := S1x2048x512) hz3, View.ld_unit_zero (S := S1x1x512) hz3, View.ld_unit_zero (S := S1x512x2048) hz3, View.ld_unit_zero (S := S1x1x2048) hz3]

/-- At the last tile it ends holding that sum plus the output bias row. -/
theorem outLast_eq (c : Dev nD) (i : grid0.Coords) (arg2 : Memref sig .tc .vmem S1x128x2048 .f32) (harg2 : arg2.IsWhole) (arg3 : Memref sig .tc .vmem S1x2048x512 .f32) (harg3 : arg3.IsWhole) (arg4 : Memref sig .tc .vmem S1x1x512 .f32) (harg4 : arg4.IsWhole) (arg5 : Memref sig .tc .vmem S1x2048x512 .f32) (harg5 : arg5.IsWhole) (arg6 : Memref sig .tc .vmem S1x1x512 .f32) (harg6 : arg6.IsWhole) (arg7 : Memref sig .tc .vmem S1x512x2048 .f32) (harg7 : arg7.IsWhole) (arg8 : Memref sig .tc .vmem S1x1x2048 .f32) (harg8 : arg8.IsWhole) (arg9 : Memref sig .tc .vmem S1x128x2048 .f32) (harg9 : arg9.IsWhole) (hc1 : ¬k0_cond1 i = 1#1) (hc2 : k0_cond2 i = 1#1) (hc3 : k0_cond3 i = 1#1)
    (x0 : Vec F S1x128x2048 .f32) (x1 : Vec F S1x2048x512 .f32) (x2 : Vec F S1x1x512 .f32) (x3 : Vec F S1x2048x512 .f32) (x4 : Vec F S1x1x512 .f32) (x5 : Vec F S1x512x2048 .f32) (x6 : Vec F S1x1x2048 .f32) (xo : Vec F S1x128x2048 .f32) :
    outLast c i arg2 harg2 arg3 harg3 arg4 harg4 arg5 harg5 arg6 harg6 arg7 harg7 arg8 harg8 arg9 harg9 hc1 hc2 hc3 x0 x1 x2 x3 x4 x5 x6 xo = k0_pay2 (k0_pay1 (k0_pay3 x0 x1 x2 x3 x4 x5) xo) x6 := by
  unfold outLast
  rw [View.read_writes_eq_canon _ _ _ (coverLast c i arg2 harg2 arg3 harg3 arg4 harg4 arg5 harg5 arg6 harg6 arg7 harg7 arg8 harg8 arg9 harg9 hc1 hc2 hc3 x0 x1 x2 x3 x4 x5 x6 xo)]
  unfold kernelRunLast
  dsimp only
  sl_unfold_words
  rw [View.canon_cons_unit_zero (S := S1x128x2048) hz3, View.readCov_unit_zero (S := S1x128x2048) _ hz3]
  simp only [View.readAt_eq_ld, harg2.read_unread, harg3.read_unread, harg4.read_unread, harg5.read_unread, harg6.read_unread, harg7.read_unread, harg8.read_unread, harg9.read_unread, View.ld_unit_zero (S := S1x128x2048) hz3, View.ld_unit_zero (S := S1x2048x512) hz3, View.ld_unit_zero (S := S1x1x512) hz3, View.ld_unit_zero (S := S1x512x2048) hz3, View.ld_unit_zero (S := S1x1x2048) hz3]

end Cert.KernelIdeal.Body

end
-- ==== Proof.KI.Blocks.lean ====
/-
  Where each window's block sits in its array. Point `t` works on expert `t / 16` and hidden tile `t % 16`: the token
  block and the output bias row are the expert's whole slices; the two first-layer weight blocks are columns
  `512·(t % 16) …` of the expert's matrices, their bias blocks the same columns of the bias rows; the second-layer
  weight block is rows `512·(t % 16) …` of the expert's matrix. Each block read at an index is the array read at
  the corresponding index.
-/
import proofs.«127655_j86543591014908_2_alg».proof.Proof.KI.Frame
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The block indices of the eight windows at point `t`, decided once over the grid. -/
theorem idx_facts : ∀ t : Fin cfg0.N,
    win0_0.index t (0 : Fin 3) = t.val / 16 ∧ win0_0.index t (1 : Fin 3) = 0 ∧ win0_0.index t (2 : Fin 3) = 0
    ∧ win0_1.index t (0 : Fin 3) = t.val / 16 ∧ win0_1.index t (1 : Fin 3) = 0 ∧ win0_1.index t (2 : Fin 3) = t.val % 16
    ∧ win0_2.index t (0 : Fin 3) = t.val / 16 ∧ win0_2.index t (1 : Fin 3) = 0 ∧ win0_2.index t (2 : Fin 3) = t.val % 16
    ∧ win0_3.index t (0 : Fin 3) = t.val / 16 ∧ win0_3.index t (1 : Fin 3) = 0 ∧ win0_3.index t (2 : Fin 3) = t.val % 16
    ∧ win0_4.index t (0 : Fin 3) = t.val / 16 ∧ win0_4.index t (1 : Fin 3) = 0 ∧ win0_4.index t (2 : Fin 3) = t.val % 16
    ∧ win0_5.index t (0 : Fin 3) = t.val / 16 ∧ win0_5.index t (1 : Fin 3) = t.val % 16 ∧ win0_5.index t (2 : Fin 3) = 0
    ∧ win0_6.index t (0 : Fin 3) = t.val / 16 ∧ win0_6.index t (1 : Fin 3) = 0 ∧ win0_6.index t (2 : Fin 3) = 0
    ∧ win0_7.index t (0 : Fin 3) = t.val / 16 ∧ win0_7.index t (1 : Fin 3) = 0 ∧ win0_7.index t (2 : Fin 3) = 0 :=
  (by decide +kernel : ∀ t : Fin grid0.N, _)

/-- A point's expert is one of the 16, -/
theorem ediv (t : Fin cfg0.N) : t.val / 16 < 16 := by
  have : t.val < 256 := lt_of_lt_of_eq t.isLt (show cfg0.N = 256 from N_0)
  omega

/-- and a column (or row) of its hidden tile is one of the 8192 hidden units. -/
theorem hcol (t : Fin cfg0.N) (j : Fin 512) : t.val % 16 * 512 + j.val < 8192 := by
  have := j.isLt; have : t.val % 16 < 16 := Nat.mod_lt _ (by decide); omega

/-- The token block: the expert's 128 × 2048 slice. -/
theorem blk0_at (c : Dev nD) (t : Fin cfg0.N) (p : Fin 128) (i : Fin 2048) :
    (iblk m c 0 t : Vec F S1x128x2048 .f32) (ix3 (0 : Fin 1) p i)
      = m ((c : Thread nD τ).loc main_arg0) (ix3 (⟨t.val / 16, ediv t⟩ : Fin 16) p i) := by
  obtain ⟨h0, h1, h2, -⟩ := idx_facts t
  unfold iblk
  rw [View.read_apply]
  show V m c main_arg0 _ = m ((c : Thread nD τ).loc main_arg0) _
  congr 1
  funext a; apply Fin.ext
  match a with
  | ⟨0, _⟩ => show win0_0.index t (0 : Fin 3) * 1 + 1 * 0 = t.val / 16; omega
  | ⟨1, _⟩ => show win0_0.index t (1 : Fin 3) * 128 + 1 * p.val = p.val; omega
  | ⟨2, _⟩ => show win0_0.index t (2 : Fin 3) * 2048 + 1 * i.val = i.val; omega

/-- The up-projection weight block: columns of the hidden tile. -/
theorem blk1_at (c : Dev nD) (t : Fin cfg0.N) (i : Fin 2048) (j : Fin 512) :
    (iblk m c 1 t : Vec F S1x2048x512 .f32) (ix3 (0 : Fin 1) i j)
      = m ((c : Thread nD τ).loc main_arg1) (ix3 (⟨t.val / 16, ediv t⟩ : Fin 16) i (⟨t.val % 16 * 512 + j.val, hcol t j⟩ : Fin 8192)) := by
  obtain ⟨-, -, -, h0, h1, h2, -⟩ := idx_facts t
  unfold iblk
  rw [View.read_apply]
  show V m c main_arg1 _ = m ((c : Thread nD τ).loc main_arg1) _
  congr 1
  funext a; apply Fin.ext
  match a with
  | ⟨0, _⟩ => show win0_1.index t (0 : Fin 3) * 1 + 1 * 0 = t.val / 16; omega
  | ⟨1, _⟩ => show win0_1.index t (1 : Fin 3) * 2048 + 1 * i.val = i.val; omega
  | ⟨2, _⟩ => show win0_1.index t (2 : Fin 3) * 512 + 1 * j.val = t.val % 16 * 512 + j.val; omega

/-- The up-projection bias block. -/
theorem blk2_at (c : Dev nD) (t : Fin cfg0.N) (j : Fin 512) :
    (iblk m c 2 t : Vec F S1x1x512 .f32) (ix3 (0 : Fin 1) (0 : Fin 1) j)
      = m ((c : Thread nD τ).loc main_arg2) (ix3 (⟨t.val / 16, ediv t⟩ : Fin 16) (0 : Fin 1) (⟨t.val % 16 * 512 + j.val, hcol t j⟩ : Fin 8192)) := by
  obtain ⟨-, -, -, -, -, -, h0, h1, h2, -⟩ := idx_facts t
  unfold iblk
  rw [View.read_apply]
  show V m c main_arg2 _ = m ((c : Thread nD τ).loc main_arg2) _
  congr 1
  funext a; apply Fin.ext
  match a with
  | ⟨0, _⟩ => show win0_2.index t (0 : Fin 3) * 1 + 1 * 0 = t.val / 16; omega
  | ⟨1, _⟩ => show win0_2.index t (1 : Fin 3) * 1 + 1 * 0 = 0; omega
  | ⟨2, _⟩ => show win0_2.index t (2 : Fin 3) * 512 + 1 * j.val = t.val % 16 * 512 + j.val; omega

/-- The gate-projection weight block. -/
theorem blk3_at (c : Dev nD) (t : Fin cfg0.N) (i : Fin 2048) (j : Fin 512) :
    (iblk m c 3 t : Vec F S1x2048x512 .f32) (ix3 (0 : Fin 1) i j)
      = m ((c : Thread nD τ).loc main_arg3) (ix3 (⟨t.val / 16, ediv t⟩ : Fin 16) i (⟨t.val % 16 * 512 + j.val, hcol t j⟩ : Fin 8192)) := by
  obtain ⟨-, -, -, -, -, -, -, -, -, h0, h1, h2, -⟩ := idx_facts t
  unfold iblk
  rw [View.read_apply]
  show V m c main_arg3 _ = m ((c : Thread nD τ).loc main_arg3) _
  congr 1
  funext a; apply Fin.ext
  match a with
  | ⟨0, _⟩ => show win0_3.index t (0 : Fin 3) * 1 + 1 * 0 = t.val / 16; omega
  | ⟨1, _⟩ => show win0_3.index t (1 : Fin 3) * 2048 + 1 * i.val = i.val; omega
  | ⟨2, _⟩ => show win0_3.index t (2 : Fin 3) * 512 + 1 * j.val = t.val % 16 * 512 + j.val; omega

/-- The gate-projection bias block. -/
theorem blk4_at (c : Dev nD) (t : Fin cfg0.N) (j : Fin 512) :
    (iblk m c 4 t : Vec F S1x1x512 .f32) (ix3 (0 : Fin 1) (0 : Fin 1) j)
      = m ((c : Thread nD τ).loc main_arg4) (ix3 (⟨t.val / 16, ediv t⟩ : Fin 16) (0 : Fin 1) (⟨t.val % 16 * 512 + j.val, hcol t j⟩ : Fin 8192)) := by
  obtain ⟨-, -, -, -, -, -, -, -, -, -, -, -, h0, h1, h2, -⟩ := idx_facts t
  unfold iblk
  rw [View.read_apply]
  show V m c main_arg4 _ = m ((c : Thread nD τ).loc main_arg4) _
  congr 1
  funext a; apply Fin.ext
  match a with
  | ⟨0, _⟩ => show win0_4.index t (0 : Fin 3) * 1 + 1 * 0 = t.val / 16; omega
  | ⟨1, _⟩ => show win0_4.index t (1 : Fin 3) * 1 + 1 * 0 = 0; omega
  | ⟨2, _⟩ => show win0_4.index t (2 : Fin 3) * 512 + 1 * j.val = t.val % 16 * 512 + j.val; omega

/-- The down-projection weight block: rows of the hidden tile. -/
theorem blk5_at (c : Dev nD) (t : Fin cfg0.N) (j : Fin 512) (q : Fin 2048) :
    (iblk m c 5 t : Vec F S1x512x2048 .f32) (ix3 (0 : Fin 1) j q)
      = m ((c : Thread nD τ).loc main_arg5) (ix3 (⟨t.val / 16, ediv t⟩ : Fin 16) (⟨t.val % 16 * 512 + j.val, hcol t j⟩ : Fin 8192) q) := by
  obtain ⟨-, -, -, -, -, -, -, -, -, -, -, -, -, -, -, h0, h1, h2, -⟩ := idx_facts t
  unfold iblk
  rw [View.read_apply]
  show V m c main_arg5 _ = m ((c : Thread nD τ).loc main_arg5) _
  congr 1
  funext a; apply Fin.ext
  match a with
  | ⟨0, _⟩ => show win0_5.index t (0 : Fin 3) * 1 + 1 * 0 = t.val / 16; omega
  | ⟨1, _⟩ => show win0_5.index t (1 : Fin 3) * 512 + 1 * j.val = t.val % 16 * 512 + j.val; omega
  | ⟨2, _⟩ => show win0_5.index t (2 : Fin 3) * 2048 + 1 * q.val = q.val; omega

/-- The down-projection bias block: the expert's row. -/
theorem blk6_at (c : Dev nD) (t : Fin cfg0.N) (q : Fin 2048) :
    (iblk m c 6 t : Vec F S1x1x2048 .f32) (ix3 (0 : Fin 1) (0 : Fin 1) q)
      = m ((c : Thread nD τ).loc main_arg6) (ix3 (⟨t.val / 16, ediv t⟩ : Fin 16) (0 : Fin 1) q) := by
  obtain ⟨-, -, -, -, -, -, -, -, -, -, -, -, -, -, -, -, -, -, h0, h1, h2, -⟩ := idx_facts t
  unfold iblk
  rw [View.read_apply]
  show V m c main_arg6 _ = m ((c : Thread nD τ).loc main_arg6) _
  congr 1
  funext a; apply Fin.ext
  match a with
  | ⟨0, _⟩ => show win0_6.index t (0 : Fin 3) * 1 + 1 * 0 = t.val / 16; omega
  | ⟨1, _⟩ => show win0_6.index t (1 : Fin 3) * 1 + 1 * 0 = 0; omega
  | ⟨2, _⟩ => show win0_6.index t (2 : Fin 3) * 2048 + 1 * q.val = q.val; omega

/-- Where an index of the output block sits in the result array. -/
theorem out_emb (t : Fin cfg0.N) (p : Fin 128) (q : Fin 2048) :
    ((cfg0.win 7).blk t).view.emb (ix3 (0 : Fin 1) p q) = ix3 (⟨t.val / 16, ediv t⟩ : Fin 16) p q := by
  obtain ⟨-, -, -, -, -, -, -, -, -, -, -, -, -, -, -, -, -, -, -, -, -, h0, h1, h2⟩ := idx_facts t
  funext a; apply Fin.ext
  match a with
  | ⟨0, _⟩ => show win0_7.index t (0 : Fin 3) * 1 + 1 * 0 = t.val / 16; omega
  | ⟨1, _⟩ => show win0_7.index t (1 : Fin 3) * 128 + 1 * p.val = p.val; omega
  | ⟨2, _⟩ => show win0_7.index t (2 : Fin 3) * 2048 + 1 * q.val = q.val; omega

end Cert.KernelIdeal.Body

end
-- ==== Proof.KI.PayAt.lean ====
/-
  The kernel body's four stored values, read at one index, as plain sums and products of the loaded blocks.

  One grid point works on one expert, all 128 tokens, and one tile of 512 hidden units. The body forms, for token `p` and
  hidden unit `j` of the tile, the up projection `(∑ i < 2048, x[0,p,i] · w_up[0,i,j]) + b_up[0,0,j]` and the gate
  projection of the same form, multiplies the up projection by `gate · σ(gate)` and contracts the product over the tile's
  512 hidden units against the down weights `w_down[0,j,q]`. On the extended reals the narrowing to the 16-bit format is
  the identity, a contraction into the zero accumulator is the bare sum over its one contracted axis, a cast that drops
  or adds a leading unit axis reads the same entry, and a bias row broadcast over the tokens reads the row's entry.
  The other three stored values add a block entrywise to the partial result, or add the down bias row to it.
-/
import proofs.«127655_j86543591014908_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayAt

open Cert.KernelIdeal Cert.KernelIdeal.Gen Idealize.ShloMosaic Idealize.ShloMosaic.ValueIdx

/-! ## The two contractions' operand indices -/

/-- The first contraction reads its left operand, on the token axis, at the result's token. -/
theorem lhs1_0 (i : S128x512.Idx) (k : dot_S128x2048_S2048x512_S128x512_1_0_0_1_n_n.contr.Idx) :
    (dot_S128x2048_S2048x512_S128x512_1_0_0_1_n_n.lhsIdx i k 0).val = (i 0).val := by
  unfold DotDims.lhsIdx
  rw [dif_neg (show ¬(0 : Fin S128x2048.rank) ∈ dot_S128x2048_S2048x512_S128x512_1_0_0_1_n_n.lhsBatch by decide),
    dif_pos (show (0 : Fin S128x2048.rank) ∈ dot_S128x2048_S2048x512_S128x512_1_0_0_1_n_n.lhsNonContracting by decide)]
  rfl

/-- The first contraction reads its right operand, on the hidden axis, at the result's hidden unit. -/
theorem rhs1_1 (i : S128x512.Idx) (k : dot_S128x2048_S2048x512_S128x512_1_0_0_1_n_n.contr.Idx) :
    (dot_S128x2048_S2048x512_S128x512_1_0_0_1_n_n.rhsIdx i k 1).val = (i 1).val := by
  unfold DotDims.rhsIdx
  rw [dif_neg (show ¬(1 : Fin S2048x512.rank) ∈ dot_S128x2048_S2048x512_S128x512_1_0_0_1_n_n.rhsBatch by decide),
    dif_pos (show (1 : Fin S2048x512.rank) ∈ dot_S128x2048_S2048x512_S128x512_1_0_0_1_n_n.rhsNonContracting by decide)]
  rfl

/-- The second contraction reads its left operand, on the token axis, at the result's token. -/
theorem lhs2_0 (i : S128x2048.Idx) (k : dot_S128x512_S512x2048_S128x2048_1_0_0_1_n_n.contr.Idx) :
    (dot_S128x512_S512x2048_S128x2048_1_0_0_1_n_n.lhsIdx i k 0).val = (i 0).val := by
  unfold DotDims.lhsIdx
  rw [dif_neg (show ¬(0 : Fin S128x512.rank) ∈ dot_S128x512_S512x2048_S128x2048_1_0_0_1_n_n.lhsBatch by decide),
    dif_pos (show (0 : Fin S128x512.rank) ∈ dot_S128x512_S512x2048_S128x2048_1_0_0_1_n_n.lhsNonContracting by decide)]
  rfl

/-- The second contraction reads its right operand, on the output axis, at the result's output feature. -/
theorem rhs2_1 (i : S128x2048.Idx) (k : dot_S128x512_S512x2048_S128x2048_1_0_0_1_n_n.contr.Idx) :
    (dot_S128x512_S512x2048_S128x2048_1_0_0_1_n_n.rhsIdx i k 1).val = (i 1).val := by
  unfold DotDims.rhsIdx
  rw [dif_neg (show ¬(1 : Fin S512x2048.rank) ∈ dot_S128x512_S512x2048_S128x2048_1_0_0_1_n_n.rhsBatch by decide),
    dif_pos (show (1 : Fin S512x2048.rank) ∈ dot_S128x512_S512x2048_S128x2048_1_0_0_1_n_n.rhsNonContracting by decide)]
  rfl

/-! ## The stages of the tile computation at an index -/

/-- A contraction of the token block against a weight tile, into the zero accumulator, at token `p` and hidden unit
    `j`: the sum over the 2048 input features of the token's entry times the weight's entry. -/
theorem mm1_at (x : Vec Ideal S1x128x2048 .f32) (w : Vec Ideal S1x2048x512 .f32)
    (hx : S1x128x2048.ShapeCasts S128x2048) (hw : S1x2048x512.ShapeCasts S2048x512) (ht : FTy.bf16.bits < FTy.f32.bits)
    (p : Fin 128) (j : Fin 512) :
    matmul (F := Ideal) dot_S128x2048_S2048x512_S128x512_1_0_0_1_n_n none
        (truncf .bf16 (shapeCast S128x2048 x hx : FVec Ideal S128x2048 .f32) ht)
        (truncf .bf16 (shapeCast S2048x512 w hw : FVec Ideal S2048x512 .f32) ht)
        (constant S128x512 .f32 0x00000000#32) (ix2 p j)
      = ∑ i : Fin 2048, x (ix3 (0 : Fin 1) p i) * w (ix3 (0 : Fin 1) i j) := by
  refine (Ideal.matmul_constant_zero_apply dot_S128x2048_S2048x512_S128x512_1_0_0_1_n_n none _ _ (ix2 p j)).trans ?_
  rw [← Equiv.sum_comp (contrEquiv1 dot_S128x2048_S2048x512_S128x512_1_0_0_1_n_n 2048 rfl rfl).symm]
  refine Finset.sum_congr rfl fun k _ => ?_
  have hk := contrEquiv1_symm_val dot_S128x2048_S2048x512_S128x512_1_0_0_1_n_n 2048 rfl rfl k
  have el : dot_S128x2048_S2048x512_S128x512_1_0_0_1_n_n.lhsIdx (ix2 p j)
      ((contrEquiv1 dot_S128x2048_S2048x512_S128x512_1_0_0_1_n_n 2048 rfl rfl).symm k) = ix2 p k :=
    funext fun a => Fin.ext (by
      match a with
      | ⟨0, _⟩ => exact lhs1_0 _ _
      | ⟨1, _⟩ => exact (dot_S128x2048_S2048x512_S128x512_1_0_0_1_n_n.lhsIdx_val_of_single rfl _ _).trans hk)
  have er : dot_S128x2048_S2048x512_S128x512_1_0_0_1_n_n.rhsIdx (ix2 p j)
      ((contrEquiv1 dot_S128x2048_S2048x512_S128x512_1_0_0_1_n_n 2048 rfl rfl).symm k) = ix2 k j :=
    funext fun a => Fin.ext (by
      match a with
      | ⟨0, _⟩ => exact (dot_S128x2048_S2048x512_S128x512_1_0_0_1_n_n.rhsIdx_val_of_single rfl _ _).trans hk
      | ⟨1, _⟩ => exact rhs1_1 _ _)
  rw [el, er]
  exact congrArg₂ (· * ·) (shapeCast_1ab_ab_apply x hx p k) (shapeCast_1ab_ab_apply w hw k j)

/-- The contraction of a `[128, 512]` tile against the down weights, into the zero accumulator, at token `p` and
    output feature `q`: the sum over the tile's 512 hidden units. -/
theorem mm2_at (g : FVec Ideal S128x512 .f32) (w : Vec Ideal S1x512x2048 .f32)
    (hw : S1x512x2048.ShapeCasts S512x2048) (ht : FTy.bf16.bits < FTy.f32.bits) (p : Fin 128) (q : Fin 2048) :
    matmul (F := Ideal) dot_S128x512_S512x2048_S128x2048_1_0_0_1_n_n none
        (truncf .bf16 g ht)
        (truncf .bf16 (shapeCast S512x2048 w hw : FVec Ideal S512x2048 .f32) ht)
        (constant S128x2048 .f32 0x00000000#32) (ix2 p q)
      = ∑ j : Fin 512, g (ix2 p j) * w (ix3 (0 : Fin 1) j q) := by
  refine (Ideal.matmul_constant_zero_apply dot_S128x512_S512x2048_S128x2048_1_0_0_1_n_n none _ _ (ix2 p q)).trans ?_
  rw [← Equiv.sum_comp (contrEquiv1 dot_S128x512_S512x2048_S128x2048_1_0_0_1_n_n 512 rfl rfl).symm]
  refine Finset.sum_congr rfl fun k _ => ?_
  have hk := contrEquiv1_symm_val dot_S128x512_S512x2048_S128x2048_1_0_0_1_n_n 512 rfl rfl k
  have el : dot_S128x512_S512x2048_S128x2048_1_0_0_1_n_n.lhsIdx (ix2 p q)
      ((contrEquiv1 dot_S128x512_S512x2048_S128x2048_1_0_0_1_n_n 512 rfl rfl).symm k) = ix2 p k :=
    funext fun a => Fin.ext (by
      match a with
      | ⟨0, _⟩ => exact lhs2_0 _ _
      | ⟨1, _⟩ => exact (dot_S128x512_S512x2048_S128x2048_1_0_0_1_n_n.lhsIdx_val_of_single rfl _ _).trans hk)
  have er : dot_S128x512_S512x2048_S128x2048_1_0_0_1_n_n.rhsIdx (ix2 p q)
      ((contrEquiv1 dot_S128x512_S512x2048_S128x2048_1_0_0_1_n_n 512 rfl rfl).symm k) = ix2 k q :=
    funext fun a => Fin.ext (by
      match a with
      | ⟨0, _⟩ => exact (dot_S128x512_S512x2048_S128x2048_1_0_0_1_n_n.rhsIdx_val_of_single rfl _ _).trans hk
      | ⟨1, _⟩ => exact rhs2_1 _ _)
  rw [el, er]
  exact congrArg (g (ix2 p k) * ·) (shapeCast_1ab_ab_apply w hw k q)

/-- A `[1, 1, 512]` bias block, viewed as one row and broadcast over the 128 tokens, reads at `(p, j)` the bias of
    hidden unit `j`. -/
theorem bias_at (b : Vec Ideal S1x1x512 .f32) (hb : S1x1x512.ShapeCasts S1x512) (hbc : S1x512.Broadcasts S128x512)
    (p : Fin 128) (j : Fin 512) :
    broadcastTo S128x512 (shapeCast S1x512 b hb) hbc (ix2 p j) = b (ix3 (0 : Fin 1) (0 : Fin 1) j) :=
  (broadcastTo_1b_ab_apply _ hbc p j).trans (shapeCast_1ab_ab_apply b hb (0 : Fin 1) j)

/-! ## The four stored values -/

/-- One hidden unit's contribution inside a tile: up · (gate · σ(gate)) · down. -/
def tileTerm (v0 : Vec Ideal S1x128x2048 .f32) (v3 : Vec Ideal S1x2048x512 .f32) (v7 : Vec Ideal S1x1x512 .f32)
    (v11 : Vec Ideal S1x2048x512 .f32) (v15 : Vec Ideal S1x1x512 .f32) (v23 : Vec Ideal S1x512x2048 .f32)
    (p : Fin 128) (q : Fin 2048) (j : Fin 512) : EReal :=
  (((∑ i : Fin 2048, v0 (ix3 (0 : Fin 1) p i) * v3 (ix3 (0 : Fin 1) i j)) + v7 (ix3 (0 : Fin 1) (0 : Fin 1) j))
    * (((∑ i : Fin 2048, v0 (ix3 (0 : Fin 1) p i) * v11 (ix3 (0 : Fin 1) i j)) + v15 (ix3 (0 : Fin 1) (0 : Fin 1) j))
        * Ideal.logistic ((∑ i : Fin 2048, v0 (ix3 (0 : Fin 1) p i) * v11 (ix3 (0 : Fin 1) i j)) + v15 (ix3 (0 : Fin 1) (0 : Fin 1) j))))
    * v23 (ix3 (0 : Fin 1) j q)

/-- The tile's partial result at token `p` and output feature `q`: the sum over the tile's 512 hidden units of
    each unit's contribution. -/
theorem pay3_at (v0 : Vec Ideal S1x128x2048 .f32) (v3 : Vec Ideal S1x2048x512 .f32) (v7 : Vec Ideal S1x1x512 .f32)
    (v11 : Vec Ideal S1x2048x512 .f32) (v15 : Vec Ideal S1x1x512 .f32) (v23 : Vec Ideal S1x512x2048 .f32)
    (p : Fin 128) (q : Fin 2048) :
    k0_pay3 (F := Ideal) v0 v3 v7 v11 v15 v23 (ix2 p q) = ∑ j : Fin 512, tileTerm v0 v3 v7 v11 v15 v23 p q j := by
  unfold k0_pay3
  refine (mm2_at _ v23 _ _ p q).trans ?_
  refine Finset.sum_congr rfl fun j _ => ?_
  unfold tileTerm
  refine congrArg (· * v23 (ix3 (0 : Fin 1) j q)) ?_
  refine congrArg₂ (· * ·) (congrArg₂ (· + ·) (mm1_at v0 v3 _ _ _ p j) (bias_at v7 _ _ p j)) ?_
  have hg := congrArg₂ (· + ·) (mm1_at v0 v11 shapeCasts_S1x128x2048_S128x2048 shapeCasts_S1x2048x512_S2048x512 bitsLt_bf16_f32 p j)
    (bias_at v15 shapeCasts_S1x1x512_S1x512 broadcasts_S1x512_S128x512 p j)
  exact congrArg₂ (· * ·) hg (congrArg Ideal.logistic hg)

/-- The partial result stored as a `[1, 128, 2048]` block reads the same entry. -/
theorem pay4_at (v0 : Vec Ideal S1x128x2048 .f32) (v3 : Vec Ideal S1x2048x512 .f32) (v7 : Vec Ideal S1x1x512 .f32)
    (v11 : Vec Ideal S1x2048x512 .f32) (v15 : Vec Ideal S1x1x512 .f32) (v23 : Vec Ideal S1x512x2048 .f32)
    (p : Fin 128) (q : Fin 2048) :
    k0_pay4 (F := Ideal) v0 v3 v7 v11 v15 v23 (ix3 (0 : Fin 1) p q) = k0_pay3 (F := Ideal) v0 v3 v7 v11 v15 v23 (ix2 p q) := by
  unfold k0_pay4
  exact shapeCast_ab_1ab_apply _ _ (0 : Fin 1) p q

/-- Accumulating a tile: the stored block's entry plus the tile's partial result at the same token and feature. -/
theorem pay1_at (v26 : FVec Ideal S128x2048 .f32) (v36 : Vec Ideal S1x128x2048 .f32) (p : Fin 128) (q : Fin 2048) :
    k0_pay1 (F := Ideal) v26 v36 (ix3 (0 : Fin 1) p q) = v36 (ix3 (0 : Fin 1) p q) + v26 (ix2 p q) := by
  unfold k0_pay1
  refine (shapeCast_ab_1ab_apply _ _ (0 : Fin 1) p q).trans ?_
  exact congrArg (· + v26 (ix2 p q)) (shapeCast_1ab_ab_apply v36 _ p q)

/-- Adding the down bias: the stored block's entry plus the bias of output feature `q`. -/
theorem pay2_at (v36 : Vec Ideal S1x128x2048 .f32) (v38 : Vec Ideal S1x1x2048 .f32) (p : Fin 128) (q : Fin 2048) :
    k0_pay2 (F := Ideal) v36 v38 (ix3 (0 : Fin 1) p q) = v36 (ix3 (0 : Fin 1) p q) + v38 (ix3 (0 : Fin 1) (0 : Fin 1) q) := by
  unfold k0_pay2
  refine (shapeCast_ab_1ab_apply _ _ (0 : Fin 1) p q).trans ?_
  exact congrArg₂ (· + ·) (shapeCast_1ab_ab_apply v36 _ p q)
    ((broadcastTo_1b_ab_apply _ _ p q).trans (shapeCast_1ab_ab_apply v38 _ (0 : Fin 1) q))

end Cert.KernelIdeal.PayAt

end
-- ==== Proof.Spec.lean ====
/-
  The mathematics both programs compute, as one function of the seven argument arrays on the extended reals.

  For each of 16 experts `e`, each of 128 tokens `r` and each of 8192 hidden units `k`:
    up    e r k = (∑ i < 2048, x[e,r,i] · w_fc[e,i,k])   + b_fc[e,0,k]
    gate  e r k = (∑ i < 2048, x[e,r,i] · w_gate[e,i,k]) + b_gate[e,0,k]
    hidden e r k = up e r k · (gate e r k · σ(gate e r k)),        σ z = 1 / (1 + e^(−z))
  and for each output feature `o` of 2048:
    result[e,r,o] = (∑ k < 8192, hidden e r k · w_proj[e,k,o]) + b_proj[e,0,o].
  Sums are finite sums in the commutative monoid of the extended reals, so their order and grouping do not matter.
-/
import Idealize.ShloMosaic.PureOps.Ideal
import Idealize.ShloMosaic.Lib.ValueIdx

noncomputable section

namespace Cert.ExpertMlp

open Idealize.ShloMosaic Idealize.ShloMosaic.ValueIdx

abbrev STok : Shape := ⟨3, ![16, 128, 2048]⟩
abbrev SUp : Shape := ⟨3, ![16, 2048, 8192]⟩
abbrev SUpBias : Shape := ⟨3, ![16, 1, 8192]⟩
abbrev SDown : Shape := ⟨3, ![16, 8192, 2048]⟩
abbrev SDownBias : Shape := ⟨3, ![16, 1, 2048]⟩

/-- An array of extended reals over a shape. -/
abbrev Arr (s : Shape) : Type := (⟨s, .f32⟩ : BufTy).Contents (Elt Ideal)

/-- One projection into the hidden axis: the token's row against column `k` of the expert's matrix, plus the bias. -/
def proj (x : Arr STok) (w : Arr SUp) (b : Arr SUpBias) (e : Fin 16) (r : Fin 128) (k : Fin 8192) : EReal :=
  (∑ i : Fin 2048, x (ix3 e r i) * w (ix3 e i k)) + b (ix3 e (0 : Fin 1) k)

/-- The gated hidden activation: the up projection times the gate projection passed through `z ↦ z · σ(z)`. -/
def hidden (x : Arr STok) (wu : Arr SUp) (bu : Arr SUpBias) (wg : Arr SUp) (bg : Arr SUpBias)
    (e : Fin 16) (r : Fin 128) (k : Fin 8192) : EReal :=
  proj x wu bu e r k * (proj x wg bg e r k * Ideal.logistic (proj x wg bg e r k))

/-- The contribution of hidden unit `k` to output feature `o`. -/
def term (x : Arr STok) (wu : Arr SUp) (bu : Arr SUpBias) (wg : Arr SUp) (bg : Arr SUpBias) (wd : Arr SDown)
    (e : Fin 16) (r : Fin 128) (o : Fin 2048) (k : Fin 8192) : EReal :=
  hidden x wu bu wg bg e r k * wd (ix3 e k o)

/-- The whole result array. -/
def result (x : Arr STok) (wu : Arr SUp) (bu : Arr SUpBias) (wg : Arr SUp) (bg : Arr SUpBias) (wd : Arr SDown)
    (bd : Arr SDownBias) : Arr STok := fun i =>
  (∑ k : Fin 8192, term x wu bu wg bg wd (i 0) (i 1) (i 2) k) + bd (ix3 (i 0) (0 : Fin 1) (i 2))

end Cert.ExpertMlp

end
-- ==== Proof.LibSumTiles.lean ====
/-
  Sums over consecutive indices, cut into tiles.

  A finite sum over the first `T * n` naturals, in any commutative additive monoid, is the sum over the `T` tiles
  `{s * n, …, s * n + n - 1}` of the sum over each tile: the tiles are consecutive and disjoint, and together they are
  the whole range. The proof is an induction on the number of tiles: one more tile appends `n` more consecutive indices.
-/
import Mathlib.Algebra.BigOperators.Fin

namespace Cert.LibSumTiles

open Finset

/-- A sum over the first `T * n` naturals is the sum over `T` consecutive tiles of `n` indices each:
    `∑ k < T * n, f k = ∑ s < T, ∑ j < n, f (s * n + j)`. Both outer sums are over ranges of naturals. -/
theorem sum_range_tiles {β : Type*} [AddCommMonoid β] (T n : ℕ) (f : ℕ → β) :
    ∑ k ∈ range (T * n), f k = ∑ s ∈ range T, ∑ j ∈ range n, f (s * n + j) := by
  induction T with
  | zero => simp
  | succ T ih => rw [sum_range_succ, ← ih, Nat.add_mul, Nat.one_mul, sum_range_add]

/-- A sum over `Fin (T * n)` of a function of the index's value is the sum over `T` tiles of the sum over each
    tile's `n` indices: `∑ k : Fin (T * n), f k = ∑ s < T, ∑ j : Fin n, f (s * n + j)`. -/
theorem sum_tiles {β : Type*} [AddCommMonoid β] (T n : ℕ) (f : ℕ → β) :
    ∑ k : Fin (T * n), f k.val = ∑ s ∈ Finset.range T, ∑ j : Fin n, f (s * n + j.val) := by
  rw [Fin.sum_univ_eq_sum_range f (T * n), sum_range_tiles]
  exact sum_congr rfl fun s _ => (Fin.sum_univ_eq_sum_range (fun j => f (s * n + j)) n).symm

/-- The instance at `8192 = 16 * 512`: a sum over 8192 consecutive indices is the sum over 16 tiles of 512. -/
theorem sum_tiles_8192 {β : Type*} [AddCommMonoid β] (f : ℕ → β) :
    ∑ k : Fin 8192, f k.val = ∑ s ∈ Finset.range 16, ∑ j : Fin 512, f (s * 512 + j.val) :=
  sum_tiles 16 512 f

end Cert.LibSumTiles
-- ==== Proof.KI.Value.lean ====
/-
  What the result array holds after the run, on the extended reals.

  After the point of expert `e` and hidden tile `h` the output's staging buffer holds, at token `p` and output
  feature `q`, the sum over the tiles `0 … h` of each tile's partial product — the sum, over the tile's 512 hidden
  units, of hidden activation times down-projection weight — and after the last tile also the output bias. The
  block is written back after the last tile only, so the result array ends holding, at `(e, p, q)`, the sum over the
  16 tiles of the sums over their 512 hidden units, which is the sum over all 8192 hidden units: finite sums of
  extended reals may be regrouped freely. No finiteness of the inputs is used.
-/
import proofs.«127655_j86543591014908_2_alg».proof.Proof.KI.Pieces
import proofs.«127655_j86543591014908_2_alg».proof.Proof.KI.Blocks
import proofs.«127655_j86543591014908_2_alg».proof.Proof.KI.PayAt
import proofs.«127655_j86543591014908_2_alg».proof.Proof.Spec
import proofs.«127655_j86543591014908_2_alg».proof.Proof.LibSumTiles
import Idealize.ShloMosaic.Lib.Pipeline.Value

set_option maxRecDepth 16384

noncomputable section

namespace Cert.KernelIdeal.RunValue

open Cert.KernelIdeal Cert.KernelIdeal.Gen Cert.KernelIdeal.Body Cert.KernelIdeal.PayAt
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The specification's result at the seven argument arrays of core `c`. -/
abbrev res (c : Dev nD) : Buf (Elt Ideal) ((c : Thread nD τ).loc main_v0) :=
  Cert.ExpertMlp.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- One hidden unit's contribution, by its number (zero past the hidden axis). -/
def unit (c : Dev nD) (e : Fin 16) (p : Fin 128) (q : Fin 2048) (k : ℕ) : EReal :=
  if hk : k < 8192 then Cert.ExpertMlp.term (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) e p q ⟨k, hk⟩ else 0

/-- Point `n` is a point of the grid when it is tile `h` of expert `e`. -/
theorem ptN (e h : ℕ) (he : e < 16) (hh : h < 16) : 16 * e + h < cfg0.N := by
  have : cfg0.N = 256 := N_0
  omega

/-- A point's partial product at a token and an output feature: the sum over the tile's 512 hidden units. -/
def part (c : Dev nD) (n : ℕ) (hn : n < cfg0.N) (p : Fin 128) (q : Fin 2048) : EReal :=
  ∑ j : Fin 512, tileTerm (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) p q j

/-- In terms of the argument arrays: the tile's hidden units are `512·h …` of the expert's. -/
theorem part_eq (c : Dev nD) (e h : ℕ) (he : e < 16) (hh : h < 16) (p : Fin 128) (q : Fin 2048) :
    part m c (16 * e + h) (ptN e h he hh) p q = ∑ j : Fin 512, unit m c ⟨e, he⟩ p q (h * 512 + j.val) := by
  unfold part
  refine Finset.sum_congr rfl fun j _ => ?_
  have hd : (16 * e + h) / 16 = e := by omega
  have hm : (16 * e + h) % 16 = h := by omega
  have hk : h * 512 + j.val < 8192 := by have := j.isLt; omega
  unfold unit
  rw [dif_pos hk]
  unfold tileTerm Cert.ExpertMlp.term Cert.ExpertMlp.hidden Cert.ExpertMlp.proj
  simp only [blk0_at, blk1_at, blk2_at, blk3_at, blk4_at, blk5_at]
  simp only [hd, hm]

theorem outsAt_congr (c : Dev nD) {n n' : ℕ} (h : n = n') (hn : n < cfg0.N) (hn' : n' < cfg0.N) :
    outsAt m c n hn = outsAt m c n' hn' := by subst h; rfl

/-- After tile `h` of expert `e`, not the last: the partial products of tiles `0 … h`, summed. -/
theorem chain (c : Dev nD) (e : ℕ) (he : e < 16) : ∀ (h : ℕ) (hh : h < 15) (p : Fin 128) (q : Fin 2048),
    outsAt m c (16 * e + h) (ptN e h he (by omega)) (ix3 (0 : Fin 1) p q)
      = ∑ s : Fin (h + 1), part m c (16 * e + s.val) (ptN e s.val he (by have := s.isLt; omega)) p q
  | 0, hh, p, q => by
    have h0 : (⟨16 * e + 0, ptN e 0 he (by omega)⟩ : Fin cfg0.N).val % 16 = 0 := by dsimp only; omega
    rw [show outsAt m c (16 * e + 0) (ptN e 0 he (by omega)) = _ from outsAt_first m c ⟨16 * e + 0, ptN e 0 he (by omega)⟩ h0,
      outFirst_eq, pay4_at, pay3_at, Fin.sum_univ_one]
    rfl
  | h + 1, hh, p, q => by
    have h0 : ¬(⟨16 * e + (h + 1), ptN e (h + 1) he (by omega)⟩ : Fin cfg0.N).val % 16 = 0 := by dsimp only; omega
    have h15 : ¬(⟨16 * e + (h + 1), ptN e (h + 1) he (by omega)⟩ : Fin cfg0.N).val % 16 = 15 := by dsimp only; omega
    rw [show outsAt m c (16 * e + (h + 1)) (ptN e (h + 1) he (by omega)) = _ from
        outsAt_later m c ⟨16 * e + (h + 1), ptN e (h + 1) he (by omega)⟩ h0 h15,
      outLater_eq, pay1_at, pay3_at,
      outsAt_congr m c (show (⟨16 * e + (h + 1), ptN e (h + 1) he (by omega)⟩ : Fin cfg0.N).val - 1 = 16 * e + h by dsimp only; omega) _ (ptN e h he (by omega)),
      chain c e he h (by omega) p q, Fin.sum_univ_castSucc (n := h + 1)]
    rfl

/-- After the last tile of expert `e`: the 16 partial products, summed, plus the output bias. -/
theorem chain_last (c : Dev nD) (e : ℕ) (he : e < 16) (p : Fin 128) (q : Fin 2048) :
    outsAt m c (16 * e + 15) (ptN e 15 he (by omega)) (ix3 (0 : Fin 1) p q)
      = (∑ s : Fin 16, part m c (16 * e + s.val) (ptN e s.val he s.isLt) p q)
        + m ((c : Thread nD τ).loc main_arg6) (ix3 (⟨e, he⟩ : Fin 16) (0 : Fin 1) q) := by
  have h15 : (⟨16 * e + 15, ptN e 15 he (by omega)⟩ : Fin cfg0.N).val % 16 = 15 := by dsimp only; omega
  have hd : (⟨16 * e + 15, ptN e 15 he (by omega)⟩ : Fin cfg0.N).val / 16 = e := by dsimp only; omega
  rw [show outsAt m c (16 * e + 15) (ptN e 15 he (by omega)) = _ from
      outsAt_last m c ⟨16 * e + 15, ptN e 15 he (by omega)⟩ h15,
    outLast_eq, pay2_at, pay1_at, pay3_at,
    outsAt_congr m c (show (⟨16 * e + 15, ptN e 15 he (by omega)⟩ : Fin cfg0.N).val - 1 = 16 * e + 14 by dsimp only; omega) _ (ptN e 14 he (by omega)),
    chain m c e he 14 (by omega) p q, blk6_at, Fin.sum_univ_castSucc (n := 15)]
  simp only [hd]
  rfl

/-- What a write-back writes is the specification's block. -/
theorem flushed_eq (c : Dev nD) (t : Fin cfg0.N) (hf : (cfg0.win 7).flush t = true) :
    (dats m 0 c).flushed 7 t = ((cfg0.win 7).blk t).view.read (Elt Ideal) (res m c) := by
  have h15 : t.val % 16 = 15 := (flush0_7 t).mp hf
  have hN : t.val < 256 := lt_of_lt_of_eq t.isLt (show cfg0.N = 256 from N_0)
  have he : t.val / 16 < 16 := by omega
  show (cfg0.win 7).cut (grid0.coords t) ((dats m 0 c).after 7 t) = _
  rw [after7]
  funext y
  obtain ⟨p, q, rfl⟩ : ∃ (p : Fin 128) (q : Fin 2048), y = ix3 (0 : Fin 1) p q :=
    ⟨y 1, y 2, by
      have e3 := eq_ix3 y
      have h0 : y 0 = (0 : Fin 1) := Fin.ext (Nat.lt_one_iff.mp (show (y 0).val < 1 from (y 0).isLt))
      rw [h0] at e3; exact e3⟩
  rw [View.read_apply, out_emb]
  show outsAt m c t.val t.isLt (ix3 (0 : Fin 1) p q) = _
  rw [outsAt_congr m c (show t.val = 16 * (t.val / 16) + 15 by omega) t.isLt (ptN (t.val / 16) 15 he (by omega)),
    chain_last m c (t.val / 16) he p q]
  show _ = (∑ k : Fin 8192, Cert.ExpertMlp.term (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨t.val / 16, ediv t⟩ : Fin 16) p q k)
      + m ((c : Thread nD τ).loc main_arg6) (ix3 (⟨t.val / 16, ediv t⟩ : Fin 16) (0 : Fin 1) q)
  congr 1
  have hs : (∑ k : Fin 8192, Cert.ExpertMlp.term (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨t.val / 16, ediv t⟩ : Fin 16) p q k)
      = ∑ k : Fin 8192, unit m c ⟨t.val / 16, he⟩ p q k.val :=
    Finset.sum_congr rfl fun k _ => by unfold unit; rw [dif_pos k.isLt]
  rw [hs, Cert.LibSumTiles.sum_tiles_8192, Finset.sum_range]
  exact Finset.sum_congr rfl fun s _ => part_eq m c (t.val / 16) s.val he s.isLt p q

/-- An index of the result array is in point `t`'s output block iff each coordinate is in the block's range. -/
theorem mem_blk (t : Fin cfg0.N) (i : S16x128x2048.Idx) :
    i ∈ ((cfg0.win 7).blk t).view.set ↔ ∀ a : Fin 3, win0_7.index t a * S1x128x2048.size a ≤ (i a).val ∧ (i a).val < win0_7.index t a * S1x128x2048.size a + S1x128x2048.size a := by
  show i ∈ ((View.whole main_v0).slice (win0_7.rect t)).set ↔ _
  rw [View.set_slice_whole, Rect.mem_set_unit]
  exact Iff.rfl

/-- Every index of the result array is in the block written back after its expert's last tile. -/
theorem covered (i : S16x128x2048.Idx) :
    ∃ t : Fin cfg0.N, (cfg0.win 7).flush t = true ∧ i ∈ ((cfg0.win 7).blk t).view.set := by
  have hi0 : (i 0).val < 16 := (i 0).isLt
  have hi1 : (i 1).val < 128 := (i 1).isLt
  have hi2 : (i 2).val < 2048 := (i 2).isLt
  refine ⟨⟨16 * (i 0).val + 15, ptN (i 0).val 15 hi0 (by omega)⟩, (flush0_7 _).mpr (by dsimp only; omega), ?_⟩
  obtain ⟨-, -, -, -, -, -, -, -, -, -, -, -, -, -, -, -, -, -, -, -, -, h0, h1, h2⟩ :=
    idx_facts ⟨16 * (i 0).val + 15, ptN (i 0).val 15 hi0 (by omega)⟩
  dsimp only at h0 h1 h2
  rw [mem_blk]
  intro a
  match a with
  | ⟨0, _⟩ =>
    show win0_7.index ⟨16 * (i 0).val + 15, _⟩ (0 : Fin 3) * 1 ≤ (i 0).val ∧ (i 0).val < win0_7.index ⟨16 * (i 0).val + 15, _⟩ (0 : Fin 3) * 1 + 1
    omega
  | ⟨1, _⟩ =>
    show win0_7.index ⟨16 * (i 0).val + 15, _⟩ (1 : Fin 3) * 128 ≤ (i 1).val ∧ (i 1).val < win0_7.index ⟨16 * (i 0).val + 15, _⟩ (1 : Fin 3) * 128 + 128
    omega
  | ⟨2, _⟩ =>
    show win0_7.index ⟨16 * (i 0).val + 15, _⟩ (2 : Fin 3) * 2048 ≤ (i 2).val ∧ (i 2).val < win0_7.index ⟨16 * (i 0).val + 15, _⟩ (2 : Fin 3) * 2048 + 2048
    omega

/-- The result array after the run is the specification's. -/
theorem final (c : Dev nD) : (dats m 0 c).arrAt 7 cfg0.N = res m c :=
  (dats m 0 c).arrAt_eq_of_cover 7 (res m c) (flushed_eq m c) covered

/-- The run, read: the result array at the specification's function of the arguments, the arguments unchanged. -/
theorem run : θ_run defs (onTc (τ := τ) (main (F := Ideal))) ⟨m, fun _ => 0, ρ⟩ fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 7).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.RunValue

end
-- ==== Proof.RefIsSpec.lean ====
/-
  The reference program, read at an index, is the per-expert gated projection of the specification.

  The reference computes, for expert `e`, token `r` and hidden unit `k`, the two projections
  `up = x · w_up + b_up` and `gate = x · w_gate + b_gate` (each a contraction over the 2048 input features plus a bias
  that does not depend on the token), multiplies `up` by `gate · (1 / (1 + e^(−gate)))`, contracts the product against the
  down weights over the 8192 hidden units and adds the down bias. Read at one index, every elementwise operation reads its
  operands at the same index, a contraction reads its left operand at `(e, r, ·)` and its right operand at `(e, ·, k)`,
  and a bias broadcast along the token axis reads the bias at `(e, 0, k)`. The only arithmetic facts used are that the
  bit pattern `0x3F800000` denotes the real `1`, and that `1 / (1 + e^(−z))` is the logistic function by definition.
-/
import proofs.«127655_j86543591014908_2_alg».proof.Proof.Spec
import proofs.«127655_j86543591014908_2_alg».proof.Proof.Gen.ReferenceIdeal.Read

noncomputable section

namespace Cert.ReferenceIdeal.RefValue

open Cert.ReferenceIdeal Cert.ReferenceIdeal.Gen Cert.ReferenceIdeal.Read
open Idealize.ShloMosaic Idealize.ShloMosaic.ValueIdx
open Cert.ExpertMlp

/-- The single-precision pattern `0x3F800000` denotes the real number one. -/
theorem one_bits : FloatOps.ofBits (F := Ideal) .f32 0x3F800000#32 = (1 : EReal) := by
  rw [Ideal.ofBits_def]
  simp [Ideal.ofBits, Ideal.ieee, -EReal.coe_mul]; norm_num

/-- The up projection at `(e, r, k)`: the contraction reads the token's row and the weight's column `k`; the bias is
    read at row `0`. -/
theorem up_at (x0 : (⟨S16x128x2048, .f32⟩ : BufTy).Contents (Elt Ideal)) (x1 : (⟨S16x2048x8192, .f32⟩ : BufTy).Contents (Elt Ideal))
    (x2 : (⟨S16x1x8192, .f32⟩ : BufTy).Contents (Elt Ideal)) (e : Fin 16) (r : Fin 128) (k : Fin 8192) :
    val_main_v2 (F := Ideal) x0 x1 x2 (ix3 e r k) = proj x0 x1 x2 e r k := by
  have hl : ∀ q : Fin 2048, lidx_main_v0 (ix3 e r k) q = ix3 e r q := fun q => funext fun a => Fin.ext (by
    match a with | ⟨0, _⟩ => rfl | ⟨1, _⟩ => rfl | ⟨2, _⟩ => rfl)
  have hr : ∀ q : Fin 2048, ridx_main_v0 (ix3 e r k) q = ix3 e q k := fun q => funext fun a => Fin.ext (by
    match a with | ⟨0, _⟩ => rfl | ⟨1, _⟩ => rfl | ⟨2, _⟩ => rfl)
  have hb : idx_main_v1 (ix3 e r k) = ix3 e (0 : Fin 1) k := funext fun a => Fin.ext (by
    match a with | ⟨0, _⟩ => rfl | ⟨1, _⟩ => rfl | ⟨2, _⟩ => rfl)
  rw [val_main_v2_apply, val_main_v0_apply, val_main_v1_apply]
  simp only [hl, hr, hb, Ideal.addf_def]
  rfl

/-- The gate projection at `(e, r, k)`: the same contraction against the gate weights, plus the gate bias. -/
theorem gate_at (x0 : (⟨S16x128x2048, .f32⟩ : BufTy).Contents (Elt Ideal)) (x3 : (⟨S16x2048x8192, .f32⟩ : BufTy).Contents (Elt Ideal))
    (x4 : (⟨S16x1x8192, .f32⟩ : BufTy).Contents (Elt Ideal)) (e : Fin 16) (r : Fin 128) (k : Fin 8192) :
    val_main_v5 (F := Ideal) x0 x3 x4 (ix3 e r k) = proj x0 x3 x4 e r k := by
  have hl : ∀ q : Fin 2048, lidx_main_v3 (ix3 e r k) q = ix3 e r q := fun q => funext fun a => Fin.ext (by
    match a with | ⟨0, _⟩ => rfl | ⟨1, _⟩ => rfl | ⟨2, _⟩ => rfl)
  have hr : ∀ q : Fin 2048, ridx_main_v3 (ix3 e r k) q = ix3 e q k := fun q => funext fun a => Fin.ext (by
    match a with | ⟨0, _⟩ => rfl | ⟨1, _⟩ => rfl | ⟨2, _⟩ => rfl)
  have hb : idx_main_v4 (ix3 e r k) = ix3 e (0 : Fin 1) k := funext fun a => Fin.ext (by
    match a with | ⟨0, _⟩ => rfl | ⟨1, _⟩ => rfl | ⟨2, _⟩ => rfl)
  rw [val_main_v5_apply, val_main_v3_apply, val_main_v4_apply]
  simp only [hl, hr, hb, Ideal.addf_def]
  rfl

/-- The gated hidden activation at `(e, r, k)`: the up projection times the gate projection times the logistic
    function of the gate projection, which the reference spells `1 / (1 + e^(−z))`. -/
theorem hidden_at (x0 : (⟨S16x128x2048, .f32⟩ : BufTy).Contents (Elt Ideal)) (x1 : (⟨S16x2048x8192, .f32⟩ : BufTy).Contents (Elt Ideal))
    (x2 : (⟨S16x1x8192, .f32⟩ : BufTy).Contents (Elt Ideal)) (x3 : (⟨S16x2048x8192, .f32⟩ : BufTy).Contents (Elt Ideal))
    (x4 : (⟨S16x1x8192, .f32⟩ : BufTy).Contents (Elt Ideal)) (e : Fin 16) (r : Fin 128) (k : Fin 8192) :
    val_main_v7 (F := Ideal) x0 x1 x2 x3 x4 (ix3 e r k) = hidden x0 x1 x2 x3 x4 e r k := by
  rw [val_main_v7_apply, val_main_v6_apply, val_main_call0_v5_apply, val_main_call0_v4_apply,
    val_main_call0_cst_0_apply, val_main_call0_v3_apply, val_main_call0_v2_apply, val_main_call0_cst_apply,
    val_main_call0_v1_apply, val_main_call0_v0_apply, up_at, gate_at, one_bits]
  rfl

/-- The reference's result is the specification's: at `(e, r, o)` the last contraction reads the hidden activation at
    `(e, r, ·)` and the down weights at `(e, ·, o)`, and the down bias is read at `(e, 0, o)`. -/
theorem ref_eq_result (x0 : (⟨S16x128x2048, .f32⟩ : BufTy).Contents (Elt Ideal)) (x1 : (⟨S16x2048x8192, .f32⟩ : BufTy).Contents (Elt Ideal))
    (x2 : (⟨S16x1x8192, .f32⟩ : BufTy).Contents (Elt Ideal)) (x3 : (⟨S16x2048x8192, .f32⟩ : BufTy).Contents (Elt Ideal))
    (x4 : (⟨S16x1x8192, .f32⟩ : BufTy).Contents (Elt Ideal)) (x5 : (⟨S16x8192x2048, .f32⟩ : BufTy).Contents (Elt Ideal))
    (x6 : (⟨S16x1x2048, .f32⟩ : BufTy).Contents (Elt Ideal)) :
    Cert.ReferenceIdeal.Read.val_main_v10 (F := Ideal) x0 x1 x2 x3 x4 x5 x6 = Cert.ExpertMlp.result x0 x1 x2 x3 x4 x5 x6 := by
  funext i
  obtain ⟨e, r, o, rfl⟩ : ∃ (e : Fin 16) (r : Fin 128) (o : Fin 2048), i = ix3 e r o := ⟨i 0, i 1, i 2, eq_ix3 i⟩
  have hl : ∀ k : Fin 8192, lidx_main_v8 (ix3 e r o) k = ix3 e r k := fun k => funext fun a => Fin.ext (by
    match a with | ⟨0, _⟩ => rfl | ⟨1, _⟩ => rfl | ⟨2, _⟩ => rfl)
  have hr : ∀ k : Fin 8192, ridx_main_v8 (ix3 e r o) k = ix3 e k o := fun k => funext fun a => Fin.ext (by
    match a with | ⟨0, _⟩ => rfl | ⟨1, _⟩ => rfl | ⟨2, _⟩ => rfl)
  have hb : idx_main_v9 (ix3 e r o) = ix3 e (0 : Fin 1) o := funext fun a => Fin.ext (by
    match a with | ⟨0, _⟩ => rfl | ⟨1, _⟩ => rfl | ⟨2, _⟩ => rfl)
  rw [val_main_v10_apply, val_main_v8_apply, val_main_v9_apply]
  simp only [hl, hr, hb, hidden_at, Ideal.addf_def]
  rfl

end Cert.ReferenceIdeal.RefValue

end
-- ==== Proof.lean ====
/-
  The certificate of a per-expert gated MLP kernel against its plain reference.

  For each of 16 experts the kernel walks the 8192 hidden units in 16 tiles of 512: per tile it forms the up and
  gate projections of the expert's 128 tokens, gates them (`up · gate · σ(gate)`), multiplies the gated tile into
  the down-projection weights' rows of that tile, and accumulates the products in the output block, adding the
  output bias after the last tile. The reference computes the same per expert with whole matrix products.
  On the extended reals a change of float format is the identity, the logistic function is the one function
  `1 / (1 + e^(−z))` on both sides, and a sum over 8192 hidden units is the sum over 16 tiles of the sums over each
  tile's 512 units, whatever the inputs: only commutativity and associativity of addition are used, so the
  precondition (finite inputs) is never opened.

  The three frame claims: the kernel at both instances by the symbolic runs of its body in its three control
  cases and the pipeline's launch theorem; the reference by its run read back. Nothing was rewritten when the
  kernel was idealized, so the preservation claim is trivial. The algebraic claim pairs the kernel's run, whose
  result array is the specification's function of the arguments, with the reference's, whose result is the same
  function.
-/
import proofs.«127655_j86543591014908_2_alg».proof.Defs
import proofs.«127655_j86543591014908_2_alg».proof.Proof.Gen.Kernel
import proofs.«127655_j86543591014908_2_alg».proof.Proof.Gen.KernelIdeal
import proofs.«127655_j86543591014908_2_alg».proof.Proof.Gen.ReferenceIdeal
import proofs.«127655_j86543591014908_2_alg».proof.Proof.Gen.ReferenceIdeal.Run
import proofs.«127655_j86543591014908_2_alg».proof.Proof.Gen.ReferenceIdeal.Read
import proofs.«127655_j86543591014908_2_alg».proof.Proof.Gen.Pre_finite_inputs
import proofs.«127655_j86543591014908_2_alg».proof.Proof.K.Frame
import proofs.«127655_j86543591014908_2_alg».proof.Proof.KI.Value
import proofs.«127655_j86543591014908_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Body.frame m ρ

/-- So does its idealization. -/
theorem frame_kernelIdeal : Cert.frame_KernelIdeal := fun m ρ _ => Cert.KernelIdeal.Body.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten in the idealization. -/
theorem preserves : Cert.preserves_Kernel_KernelIdeal := trivial

/-- From memories agreeing on the arguments both programs end with the specification's result array. -/
theorem algebraic : Cert.algebraic_KernelIdeal_ReferenceIdeal := by
  intro m ρ m' ρ' _ hagree
  refine ⟨fun c => Cert.KernelIdeal.RunValue.res m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq_result,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
